-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x64x64x64 : Shape := ⟨4, ![4, 64, 64, 64]⟩
abbrev S_ : Shape := ⟨0, ![]⟩

class Facts : Prop where
  bcast_S_S4x64x64x64 : S_.BroadcastsInDim S4x64x64x64 (![] : Fin 0 → Fin S4x64x64x64.rank)
  reducesTo_S4x64x64x64_S_d0_1_2_3 : S4x64x64x64.ReducesTo [0, 1, 2, 3] S_
  h_S_ : 0 < S_.numel

variable [Facts]

def fn {F : FTy → Type} [FloatOps F] (main_arg0 : FVec F S4x64x64x64 .f32) : IVec S_ 1 :=
  let main_v0 : FVec F S4x64x64x64 .f32 := Host.absf main_arg0
  let main_cst : FVec F S_ .f32 := constant S_ .f32 0x7F800000#32
  let main_v1 : FVec F S4x64x64x64 .f32 := broadcastInDim S4x64x64x64 ![] bcast_S_S4x64x64x64 main_cst
  let main_v2 : IVec S4x64x64x64 1 := cmpf .olt main_v0 main_v1
  let main_c : IVec S_ 1 := constantI S_ 1 1#1
  let main_v3 : IVec S_ 1 := (fun x v => Host.reduce IntOp.andi x v reducesTo_S4x64x64x64_S_d0_1_2_3 h_S_) main_v2 main_c
  main_v3
-- ==== Kernel.lean ====
abbrev S4x64x64x64 : Shape := ⟨4, ![4, 64, 64, 64]⟩
abbrev S4x64x4096 : Shape := ⟨3, ![4, 64, 4096]⟩
abbrev S4x1x1024 : Shape := ⟨3, ![4, 1, 1024]⟩
abbrev S1x64x512 : Shape := ⟨3, ![1, 64, 512]⟩
abbrev S1x64x4096 : Shape := ⟨3, ![1, 64, 4096]⟩
abbrev S1x1x128 : Shape := ⟨3, ![1, 1, 128]⟩
abbrev S64x512 : Shape := ⟨2, ![64, 512]⟩
abbrev S1x1 : Shape := ⟨2, ![1, 1]⟩
abbrev S512x512 : Shape := ⟨2, ![512, 512]⟩
abbrev S1x512x512 : Shape := ⟨3, ![1, 512, 512]⟩
abbrev S1 : Shape := ⟨1, ![1]⟩
abbrev S1x1x1 : Shape := ⟨3, ![1, 1, 1]⟩
abbrev S4x8x128 : Shape := ⟨3, ![4, 8, 128]⟩
abbrev S4x8x1 : Shape := ⟨3, ![4, 8, 1]⟩
abbrev S4x8 : Shape := ⟨2, ![4, 8]⟩
abbrev S_ : Shape := ⟨0, ![]⟩
abbrev S4 : Shape := ⟨1, ![4]⟩
abbrev S4x1x1 : Shape := ⟨3, ![4, 1, 1]⟩

abbrev nBuf : Space → Nat
  | .hbm => 13
  | .vmem => 10
  | .smem => 0
  | _ => 0

abbrev bufTy : (tb : Table) → Fin (tcTables nBuf tb) → BufTy
  | .hbm, ⟨0, _⟩ => ⟨S4x64x64x64, .f32⟩
  | .hbm, ⟨1, _⟩ => ⟨S4x64x4096, .f32⟩
  | .hbm, ⟨2, _⟩ => ⟨S4x64x4096, .f32⟩
  | .hbm, ⟨3, _⟩ => ⟨S4x1x1024, .f32⟩
  | .hbm, ⟨4, _⟩ => ⟨S4x8x128, .f32⟩
  | .hbm, ⟨5, _⟩ => ⟨S4x8x1, .f32⟩
  | .hbm, ⟨6, _⟩ => ⟨S4x8, .f32⟩
  | .hbm, ⟨7, _⟩ => ⟨S_, .f32⟩
  | .hbm, ⟨8, _⟩ => ⟨S4, .f32⟩
  | .hbm, ⟨9, _⟩ => ⟨S4x1x1, .f32⟩
  | .hbm, ⟨10, _⟩ => ⟨S4x64x4096, .f32⟩
  | .hbm, ⟨11, _⟩ => ⟨S4x64x4096, .f32⟩
  | .hbm, ⟨12, _⟩ => ⟨S4x64x64x64, .f32⟩
  | .local _ .vmem, ⟨0, _⟩ => ⟨S1x64x512, .f32⟩
  | .local _ .vmem, ⟨1, _⟩ => ⟨S1x64x512, .f32⟩
  | .local _ .vmem, ⟨2, _⟩ => ⟨S1x64x4096, .f32⟩
  | .local _ .vmem, ⟨3, _⟩ => ⟨S1x64x4096, .f32⟩
  | .local _ .vmem, ⟨4, _⟩ => ⟨S1x64x512, .f32⟩
  | .local _ .vmem, ⟨5, _⟩ => ⟨S1x64x512, .f32⟩
  | .local _ .vmem, ⟨6, _⟩ => ⟨S1x1x128, .f32⟩
  | .local _ .vmem, ⟨7, _⟩ => ⟨S1x1x128, .f32⟩
  | .local _ .vmem, ⟨8, _⟩ => ⟨S64x512, .f32⟩
  | .local _ .vmem, ⟨9, _⟩ => ⟨S1x1, .f32⟩
  | _, _ => ⟨S4x64x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1_0 : Ref sig .tc := ⟨.hbm, 2, rfl⟩
abbrev main_v1_1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 8], ![false, false]⟩

@[reducible] def k0_t1_loop : Scf.Loop 32 :=
  let c0_i32 : BitVec 32 := 0#32
  let c8_i32 : BitVec 32 := 8#32
  let v10 : BitVec 32 := Scalar.addi c0_i32 c8_i32
  let c1_i32 : BitVec 32 := 1#32
  ⟨c0_i32, v10, c1_i32⟩
def k0_mult1 (k0_t1 : Fin k0_t1_loop.trips) : BitVec 32 :=
  let c0_i32_19 : BitVec 32 := 0#32
  let c0_i32 : BitVec 32 := 0#32
  let c1_i32 : BitVec 32 := 1#32
  let arg8 : BitVec 32 := Scf.iv c0_i32 c1_i32 k0_t1
  let c1_i32_18 : BitVec 32 := 1#32
  let v19 : BitVec 32 := Scalar.muli arg8 c1_i32_18
  let v20 : BitVec 32 := Scalar.addi c0_i32_19 v19
  let c512_i32 : BitVec 32 := 512#32
  let v21 : BitVec 32 := Scalar.muli v20 c512_i32
  v21
def k0_off1 (k0_t1 : Fin k0_t1_loop.trips) : Fin 3 → Nat :=
  let c0_20 : Index := 0#32
  let c0_21 : Index := 0#32
  let c0_i32_19 : BitVec 32 := 0#32
  let c0_i32 : BitVec 32 := 0#32
  let c1_i32 : BitVec 32 := 1#32
  let arg8 : BitVec 32 := Scf.iv c0_i32 c1_i32 k0_t1
  let c1_i32_18 : BitVec 32 := 1#32
  let v19 : BitVec 32 := Scalar.muli arg8 c1_i32_18
  let v20 : BitVec 32 := Scalar.addi c0_i32_19 v19
  let c512_i32 : BitVec 32 := 512#32
  let v21 : BitVec 32 := Scalar.muli v20 c512_i32
  let v22 : BitVec 32 := v21
  let v23 : Index := Scalar.indexCast v22
  ![0, 0, v23.toNat]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x64x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x64x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x64x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  shapeCasts_S4x64x64x64_S4x64x4096 : S4x64x64x64.ShapeCasts S4x64x4096
  inb_S64x512_S64x512_0_0 : ∀ a, (![0, 0] : Fin 2 → Nat) a + S64x512.size a ≤ S64x512.size a
  h_S64x512 : 0 < S64x512.numel
  shapeCasts_S64x512_S64x512 : S64x512.ShapeCasts S64x512
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S1x64x512_S1x64x512_0_0_0 : ∀ a, (![0, 0, 0] : Fin 3 → Nat) a + S1x64x512.size a ≤ S1x64x512.size a
  h_S1x64x512 : 0 < S1x64x512.numel
  shapeCasts_S1x64x512_S64x512 : S1x64x512.ShapeCasts S64x512
  shapeCasts_S512x512_S1x512x512 : S512x512.ShapeCasts S1x512x512
  reduces_S1x512x512_S1 : S1x512x512.Reduces [1, 2] S1
  shapeCasts_S1_S1x1x1 : S1.ShapeCasts S1x1x1
  inpos_S1x1x1_p0_0_0 : ∀ a, (![0, 0, 0] : Fin 3 → Nat) a < S1x1x1.size a
  shapeCasts_S64x512_S1x64x512 : S64x512.ShapeCasts S1x64x512
  inpos_S1x1_p0_0 : ∀ a, (![0, 0] : Fin 2 → Nat) a < S1x1.size a
  inb_S1x1x128_S1x1x128_0_0_0 : ∀ a, (![0, 0, 0] : Fin 3 → Nat) a + S1x1x128.size a ≤ S1x1x128.size a
  h_S1x1x128 : 0 < S1x1x128.numel
  shapeCasts_S4x1x1024_S4x8x128 : S4x1x1024.ShapeCasts S4x8x128
  slices_S4x8x128_S4x8x1_0_0_0 : S4x8x128.Slices ![0, 0, 0] S4x8x1
  shapeCasts_S4x8x1_S4x8 : S4x8x1.ShapeCasts S4x8
  reducesTo_S4x8_S4_d1 : S4x8.ReducesTo [1] S4
  h_S_ : 0 < S_.numel
  shapeCasts_S4_S4x1x1 : S4.ShapeCasts S4x1x1
  bcast_S4x1x1_S4x64x4096_0_1_2 : S4x1x1.BroadcastsInDim S4x64x4096 (![0, 1, 2] : Fin 3 → Fin S4x64x4096.rank)
  shapeCasts_S4x64x4096_S4x64x64x64 : S4x64x4096.ShapeCasts S4x64x64x64
  dot_S64x512_S64x512_S512x512_0_0_1_1_n_n_wf : DotDims.WF S64x512 S64x512 S512x512 [0] [0] [1] [1] [] []
  dot_S64x512_S512x512_S64x512_1_0_0_1_n_n_wf : DotDims.WF S64x512 S512x512 S64x512 [1] [0] [0] [1] [] []
  hrank0 : 0 < grid0.rank
  k0_t1_ok : k0_t1_loop.OK
  k0_mult1_dvd : ∀ k0_t1 : Fin k0_t1_loop.trips, 512 ∣ (k0_mult1 k0_t1).toNat
  k0_off1_inb : ∀ k0_t1 : Fin k0_t1_loop.trips, ∀ a, (k0_off1 k0_t1) a + S1x64x512.size a ≤ S1x64x4096.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x64x512.size a ≤ S4x64x4096.size a
  hwx0_0 : ∀ i : grid0.Coords, EltTy.bits .f32 = 32 ∨ (Rect.block (s := S4x64x4096) S1x64x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x64x4096.size a ≤ S4x64x4096.size a
  hwx0_1 : ∀ i : grid0.Coords, EltTy.bits .f32 = 32 ∨ (Rect.block (s := S4x64x4096) S1x64x4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x64x512.size a ≤ S4x64x4096.size a
  hwx0_2 : ∀ i : grid0.Coords, EltTy.bits .f32 = 32 ∨ (Rect.block (s := S4x64x4096) S1x64x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x128.size a ≤ S4x1x1024.size a
  hwx0_3 : ∀ i : grid0.Coords, EltTy.bits .f32 = 32 ∨ (Rect.block (s := S4x1x1024) S1x1x128.size (cc0_transform_3 i) (hinb0_3 i)).WholeWords (EltTy.packing .f32)

variable [Facts₀]

def dot_S64x512_S64x512_S512x512_0_0_1_1_n_n : DotDims S64x512 S64x512 S512x512 where
  lhsContracting := [0]
  rhsContracting := [0]
  lhsNonContracting := [1]
  rhsNonContracting := [1]
  lhsBatch := []
  rhsBatch := []
  wf := dot_S64x512_S64x512_S512x512_0_0_1_1_n_n_wf
def dot_S64x512_S512x512_S64x512_1_0_0_1_n_n : DotDims S64x512 S512x512 S64x512 where
  lhsContracting := [1]
  rhsContracting := [0]
  lhsNonContracting := [0]
  rhsNonContracting := [1]
  lhsBatch := []
  rhsBatch := []
  wf := dot_S64x512_S512x512_S64x512_1_0_0_1_n_n_wf

abbrev win0_0 : Pipeline.Window sig grid0 :=
  Pipeline.Window.ofSpec (Memref.whole main_v0) S1x64x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x64x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1_0) S1x64x512.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1_1) S1x1x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4x64x64x64 : Shape := ⟨4, ![4, 64, 64, 64]⟩
abbrev S4x64x4096 : Shape := ⟨3, ![4, 64, 4096]⟩
abbrev S4x4096x4096 : Shape := ⟨3, ![4, 4096, 4096]⟩
abbrev S_ : Shape := ⟨0, ![]⟩
abbrev S4 : Shape := ⟨1, ![4]⟩
abbrev S4x1x1 : Shape := ⟨3, ![4, 1, 1]⟩

abbrev nBuf : Space → Nat
  | .hbm => 11
  | .vmem => 0
  | .smem => 0
  | _ => 0

abbrev bufTy : (tb : Table) → Fin (tcTables nBuf tb) → BufTy
  | .hbm, ⟨0, _⟩ => ⟨S4x64x64x64, .f32⟩
  | .hbm, ⟨1, _⟩ => ⟨S4x64x4096, .f32⟩
  | .hbm, ⟨2, _⟩ => ⟨S4x4096x4096, .f32⟩
  | .hbm, ⟨3, _⟩ => ⟨S4x4096x4096, .f32⟩
  | .hbm, ⟨4, _⟩ => ⟨S_, .f32⟩
  | .hbm, ⟨5, _⟩ => ⟨S4, .f32⟩
  | .hbm, ⟨6, _⟩ => ⟨S4x1x1, .f32⟩
  | .hbm, ⟨7, _⟩ => ⟨S4x4096x4096, .f32⟩
  | .hbm, ⟨8, _⟩ => ⟨S4x4096x4096, .f32⟩
  | .hbm, ⟨9, _⟩ => ⟨S4x64x4096, .f32⟩
  | .hbm, ⟨10, _⟩ => ⟨S4x64x64x64, .f32⟩
  | _, _ => ⟨S4x64x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_cst : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩

abbrev nD : Nat := 1
abbrev τ : Topo := Topo.v7x

variable {F : FTy → Type} [FloatOps F]

class Facts₀ : Prop where
  shapeCasts_S4x64x64x64_S4x64x4096 : S4x64x64x64.ShapeCasts S4x64x4096
  reducesTo_S4x4096x4096_S4_d1_2 : S4x4096x4096.ReducesTo [1, 2] S4
  h_S_ : 0 < S_.numel
  bcast_S4_S4x1x1_0 : S4.BroadcastsInDim S4x1x1 (![0] : Fin 1 → Fin S4x1x1.rank)
  bcast_S4x1x1_S4x4096x4096_0_1_2 : S4x1x1.BroadcastsInDim S4x4096x4096 (![0, 1, 2] : Fin 3 → Fin S4x4096x4096.rank)
  shapeCasts_S4x64x4096_S4x64x64x64 : S4x64x4096.ShapeCasts S4x64x64x64
  dot_S4x64x4096_S4x64x4096_S4x4096x4096_1_1_2_2_0_0_wf : DotDims.WF S4x64x4096 S4x64x4096 S4x4096x4096 [1] [1] [2] [2] [0] [0]
  dot_S4x64x4096_S4x4096x4096_S4x64x4096_2_1_1_2_0_0_wf : DotDims.WF S4x64x4096 S4x4096x4096 S4x64x4096 [2] [1] [1] [2] [0] [0]

variable [Facts₀]

def dot_S4x64x4096_S4x64x4096_S4x4096x4096_1_1_2_2_0_0 : DotDims S4x64x4096 S4x64x4096 S4x4096x4096 where
  lhsContracting := [1]
  rhsContracting := [1]
  lhsNonContracting := [2]
  rhsNonContracting := [2]
  lhsBatch := [0]
  rhsBatch := [0]
  wf := dot_S4x64x4096_S4x64x4096_S4x4096x4096_1_1_2_2_0_0_wf
def dot_S4x64x4096_S4x4096x4096_S4x64x4096_2_1_1_2_0_0 : DotDims S4x64x4096 S4x4096x4096 S4x64x4096 where
  lhsContracting := [2]
  rhsContracting := [1]
  lhsNonContracting := [1]
  rhsNonContracting := [2]
  lhsBatch := [0]
  rhsBatch := [0]
  wf := dot_S4x64x4096_S4x4096x4096_S4x64x4096_2_1_1_2_0_0_wf

class Facts : Prop extends Facts₀ where

variable [Facts]
-- ==== Proof.KBBody.lean ====
/-
  The kernel body of the tiled attention program, run once on any staging memrefs, for every float instance.

  A grid point is a pair (batch, column tile). The body receives four blocks — the column tile of the flattened image
  (window 0), the batch's whole slice of it (window 1), and the two result blocks (windows 2 and 3) — and two scratch
  buffers of its own: a running numerator [64, 512] and a running total [1, 1]. It zeroes both scratches, walks the eight
  row tiles of the slice in a counted loop (each trip adds the tile's contribution to both), then stores the numerator
  into window 2's block and the total, repeated along the lanes, into window 3's.  Both scratches are rewritten from zero
  at every point, so nothing is carried from one point to the next and the region's invariant only says that the scratch
  buffers are held at some contents.

  Here: the contents of every unscoped buffer when the region is entered (after the one reshape before it), a window's
  block at a point read off those contents, the body's run as a statement about ANY whole staging memrefs — what each
  result block is left holding is the list of stores the run itself finds —, that each list covers its block, and so what
  each result block holds afterwards whatever it held before.
-/
import proofs.«171277_j13898514170484_2_alg».proof.Proof.Gen.Kernel.Skeleton
import proofs.«171277_j13898514170484_2_alg».proof.Proof.Gen.Kernel.Loops
import proofs.«171277_j13898514170484_2_alg».proof.Proof.Gen.Kernel.Launch
import proofs.«171277_j13898514170484_2_alg».proof.Proof.Gen.Kernel.Points
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers as the region finds them -/

/-- Core `c`'s unscoped buffer contents when the region is entered: the launch contents after the reshape of the image. -/
abbrev V0 (c : Dev nD) : Valuation τ sig (Elt F) := StableHlo.after hostOps0 (fun b => m (c, b))
/-- The same read at a TensorCore reference. -/
abbrev V (c : Dev nD) (b : Ref sig .tc) : Buf (Elt F) ((c : Thread nD τ).loc b) := V0 m c (Proc.devRef .tc b)

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The staging memrefs at a point, and the scratches -/

abbrev ms0_0 (t : Fin cfg0.N) : Memref sig .tc .vmem S1x64x512 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x64x4096 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x64x512 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1x128 .f32 := win0_3.stage (cfg0.slots t 3)
abbrev hs0_3 (t : Fin cfg0.N) : (ms0_3 t).IsWhole := hstage0_3 ((cfg0.slots t 3).cast nbuf0_3)
/-- The running numerator and the running total: whole scoped buffers of the kernel's own. -/
abbrev scM0_0 : Memref sig .tc .vmem S64x512 .f32 := Memref.whole cc0_scratch0
abbrev scM0_1 : Memref sig .tc .vmem S1x1 .f32 := Memref.whole cc0_scratch1

/-- One staging buffer of each result window, through which its contents are stated (the choice does not matter once
    the stores cover the block). -/
abbrev VO0_2 : View sig .tc .vmem S1x64x512 .f32 := (Memref.whole cc0_stg2_0 : Memref sig .tc .vmem S1x64x512 .f32).view
abbrev VO0_3 : View sig .tc .vmem S1x1x128 .f32 := (Memref.whole cc0_stg3_0 : Memref sig .tc .vmem S1x1x128 .f32).view

/-- The region's invariant with the two scratches as memrefs owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

/-! ## The body on any staging memrefs -/

set_option maxHeartbeats 4000000 in
/-- What the body's stores leave in each result block, as pieces (last first), WITH the proof that on whole staging
    memrefs — the two input blocks at their contents, the result blocks and the scratches at anything — the body runs to
    the continuation holding the inputs as they were, each result block with its pieces written and the scratches at some
    contents. The counted loop is passed by its invariant, once, at a symbolic trip. The pieces are the witness the run
    finds. -/
noncomputable def kernelRun0 (c : Dev nD) (i : grid0.Coords)
    (arg2 : Memref sig .tc .vmem S1x64x512 .f32) (harg2 : arg2.IsWhole) (arg3 : Memref sig .tc .vmem S1x64x4096 .f32) (harg3 : arg3.IsWhole)
    (arg4 : Memref sig .tc .vmem S1x64x512 .f32) (harg4 : arg4.IsWhole) (arg5 : Memref sig .tc .vmem S1x1x128 .f32) (harg5 : arg5.IsWhole)
    (arg6 : Memref sig .tc .vmem S64x512 .f32) (harg6 : arg6.IsWhole) (arg7 : Memref sig .tc .vmem S1x1 .f32) (harg7 : arg7.IsWhole)
    (x0 : Vec F S1x64x512 .f32) (x1 : Vec F S1x64x4096 .f32) :
    Σ' (L2 : List (View.Piece (Elt F) S1x64x512 .f32)), { L3 : List (View.Piece (Elt F) S1x1x128 .f32) //
      ∀ (E : Set ℕ) (K : PUnit → sProp 𝕄),
        iprop(owns (c : Thread nD τ) arg2 fullShare x0 ∗ owns (c : Thread nD τ) arg3 fullShare x1
            ∗ (∃ d, owns (c : Thread nD τ) arg4 fullShare d) ∗ (∃ d, owns (c : Thread nD τ) arg5 fullShare d)
            ∗ (∃ d, owns (c : Thread nD τ) arg6 fullShare d) ∗ (∃ d, owns (c : Thread nD τ) arg7 fullShare d)
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L2)
                ∗ (∃ f, arg5.view.loc (c : Thread nD τ) ↦[arg5.view.set]{fullShare} arg5.view.writes (Elt F) f L3)
                ∗ (∃ d, owns (c : Thread nD τ) arg6 fullShare d) ∗ (∃ d, owns (c : Thread nD τ) arg7 fullShare d)) -∗ K ⟨⟩))
          ⊢ wp frame (wpE (defs₀ (F := F)) Variants.none c none) E
              (cc0__fused_kernel i arg2 harg2 arg3 harg3 arg4 harg4 arg5 harg5 arg6 harg6 arg7 harg7) K } := by
  refine ⟨?_, ?_, fun E K => ?run⟩
  case run =>
    simp only [cc0__fused_kernel_eq_skeleton]; unfold cc0__fused_kernel_skel
    unfold owns
    iintro ⟨⟨%f0, %hf0, H0⟩, ⟨%f1, %hf1, H1⟩, ⟨%d2, %f2, -, H2⟩, ⟨%d3, %f3, -, H3⟩, ⟨%d6, %f6, -, HS0⟩, ⟨%d7, %f7, -, HS1⟩, Hk⟩
    obtain rfl := harg2.eq_unread hf0; obtain rfl := harg3.eq_unread hf1
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [H3]; · iexists _; iexact H3
    isplitl [HS0]
    · iexists _; iexists _; isplitr
      swap; · iexact HS0
      ipureintro; rfl
    iexists _; iexists _; isplitr
    swap; · iexact HS1
    ipureintro; rfl

/-! ## What the result blocks hold afterwards -/

/-- The stores into window 2's block tile it: one store of the whole block. -/
theorem cover0_2 (c : Dev nD) (i : grid0.Coords)
    (arg2 : Memref sig .tc .vmem S1x64x512 .f32) (harg2 : arg2.IsWhole) (arg3 : Memref sig .tc .vmem S1x64x4096 .f32) (harg3 : arg3.IsWhole)
    (arg4 : Memref sig .tc .vmem S1x64x512 .f32) (harg4 : arg4.IsWhole) (arg5 : Memref sig .tc .vmem S1x1x128 .f32) (harg5 : arg5.IsWhole)
    (arg6 : Memref sig .tc .vmem S64x512 .f32) (harg6 : arg6.IsWhole) (arg7 : Memref sig .tc .vmem S1x1 .f32) (harg7 : arg7.IsWhole)
    (x0 : Vec F S1x64x512 .f32) (x1 : Vec F S1x64x4096 .f32) (y : S1x64x512.Idx) :
    ∃ pc ∈ (kernelRun0 c i arg2 harg2 arg3 harg3 arg4 harg4 arg5 harg5 arg6 harg6 arg7 harg7 x0 x1).1, y ∈ pc.1.set :=
  View.cover_of_tiledL (kernelRun0 c i arg2 harg2 arg3 harg3 arg4 harg4 arg5 harg5 arg6 harg6 arg7 harg7 x0 x1).1 S1x64x512.size (by sl_kernel_rfl) y

/-- What the body leaves in window 2's block: its stores read back over anything. -/
def out0_2 (c : Dev nD) (i : grid0.Coords)
    (arg2 : Memref sig .tc .vmem S1x64x512 .f32) (harg2 : arg2.IsWhole) (arg3 : Memref sig .tc .vmem S1x64x4096 .f32) (harg3 : arg3.IsWhole)
    (arg4 : Memref sig .tc .vmem S1x64x512 .f32) (harg4 : arg4.IsWhole) (arg5 : Memref sig .tc .vmem S1x1x128 .f32) (harg5 : arg5.IsWhole)
    (arg6 : Memref sig .tc .vmem S64x512 .f32) (harg6 : arg6.IsWhole) (arg7 : Memref sig .tc .vmem S1x1 .f32) (harg7 : arg7.IsWhole)
    (x0 : Vec F S1x64x512 .f32) (x1 : Vec F S1x64x4096 .f32) : Vec F S1x64x512 .f32 :=
  VO0_2.read (Elt F) (VO0_2.writes (Elt F) VO0_2.junk (kernelRun0 c i arg2 harg2 arg3 harg3 arg4 harg4 arg5 harg5 arg6 harg6 arg7 harg7 x0 x1).1)

/-- The stores into window 3's block tile it: one store of the whole block. -/
theorem cover0_3 (c : Dev nD) (i : grid0.Coords)
    (arg2 : Memref sig .tc .vmem S1x64x512 .f32) (harg2 : arg2.IsWhole) (arg3 : Memref sig .tc .vmem S1x64x4096 .f32) (harg3 : arg3.IsWhole)
    (arg4 : Memref sig .tc .vmem S1x64x512 .f32) (harg4 : arg4.IsWhole) (arg5 : Memref sig .tc .vmem S1x1x128 .f32) (harg5 : arg5.IsWhole)
    (arg6 : Memref sig .tc .vmem S64x512 .f32) (harg6 : arg6.IsWhole) (arg7 : Memref sig .tc .vmem S1x1 .f32) (harg7 : arg7.IsWhole)
    (x0 : Vec F S1x64x512 .f32) (x1 : Vec F S1x64x4096 .f32) (y : S1x1x128.Idx) :
    ∃ pc ∈ (kernelRun0 c i arg2 harg2 arg3 harg3 arg4 harg4 arg5 harg5 arg6 harg6 arg7 harg7 x0 x1).2.1, y ∈ pc.1.set :=
  View.cover_of_tiledL (kernelRun0 c i arg2 harg2 arg3 harg3 arg4 harg4 arg5 harg5 arg6 harg6 arg7 harg7 x0 x1).2.1 S1x1x128.size (by sl_kernel_rfl) y

/-- What the body leaves in window 3's block: its stores read back over anything. -/
def out0_3 (c : Dev nD) (i : grid0.Coords)
    (arg2 : Memref sig .tc .vmem S1x64x512 .f32) (harg2 : arg2.IsWhole) (arg3 : Memref sig .tc .vmem S1x64x4096 .f32) (harg3 : arg3.IsWhole)
    (arg4 : Memref sig .tc .vmem S1x64x512 .f32) (harg4 : arg4.IsWhole) (arg5 : Memref sig .tc .vmem S1x1x128 .f32) (harg5 : arg5.IsWhole)
    (arg6 : Memref sig .tc .vmem S64x512 .f32) (harg6 : arg6.IsWhole) (arg7 : Memref sig .tc .vmem S1x1 .f32) (harg7 : arg7.IsWhole)
    (x0 : Vec F S1x64x512 .f32) (x1 : Vec F S1x64x4096 .f32) : Vec F S1x1x128 .f32 :=
  VO0_3.read (Elt F) (VO0_3.writes (Elt F) VO0_3.junk (kernelRun0 c i arg2 harg2 arg3 harg3 arg4 harg4 arg5 harg5 arg6 harg6 arg7 harg7 x0 x1).2.1)

end Cert.Kernel.Hand

end
-- ==== Proof.KBFrame.lean ====
/-
  The proof data of the tiled attention kernel's one pipeline, and the body obligation at every grid point.

  The flattened image is handed to the kernel twice: window 0 takes its column tile, window 1 the batch's whole slice.
  Both windows only read it, so each holds half of the array's share for the whole region, and the array is never
  written. Window 0's index moves at every point, window 1's only when the batch changes; either way the block the body
  finds in an input's staging buffer is that window's block of the array at the point. The two result windows are
  written back at every point, and what the body leaves in them is what its stores put there, a function of the two
  input blocks alone.
-/
import proofs.«171277_j13898514170484_2_alg».proof.Proof.KBBody
import Idealize.ShloMosaic.Lib.Pipeline.FrameBody

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## An input's staging buffer holds its block -/

/-- Window 0's current staging buffer holds its block at every point, for any proof data whose array is the
    region-entry contents and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Window 1's too, fetched at the point or not: where it is not fetched its index has not moved. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- No window is idle at any point. -/
theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel

/-! ## The proof data -/

/-- The proof data on core `c`: the arrays as the region finds them; after the body at point `t` each input's buffer at
    its block and each result's at what the body's stores left; the invariant the scratches at anything; nothing owed;
    the flattened image's share halved between its two windows. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => out0_2 c (grid0.coords t) (ms0_0 t) (hs0_0 t) (ms0_1 t) (hs0_1 t) (ms0_2 t) (hs0_2 t) (ms0_3 t) (hs0_3 t) scM0_0 (Memref.isWhole_whole _) scM0_1 (Memref.isWhole_whole _) (iblk m c 0 t) (iblk m c 1 t)
    | ⟨3, _⟩ => out0_3 c (grid0.coords t) (ms0_0 t) (hs0_0 t) (ms0_1 t) (hs0_1 t) (ms0_2 t) (hs0_2 t) (ms0_3 t) (hs0_3 t) scM0_0 (Memref.isWhole_whole _) scM0_1 (Memref.isWhole_whole _) (iblk m c 0 t) (iblk m c 1 t)
  Φ _ := Pipeline.ΦA spec0 c
  q w := match w with
    | ⟨0, _⟩ => fullShare.left
    | ⟨1, _⟩ => fullShare.right
    | ⟨2, _⟩ => fullShare
    | ⟨3, _⟩ => fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = out0_2 c (grid0.coords t) (ms0_0 t) (hs0_0 t) (ms0_1 t) (hs0_1 t) (ms0_2 t) (hs0_2 t) (ms0_3 t) (hs0_3 t) scM0_0 (Memref.isWhole_whole _) scM0_1 (Memref.isWhole_whole _) (iblk m c 0 t) (iblk m c 1 t) := by dsimp only [dats]
theorem after0_3 (c : Dev nD) (t : Fin cfg0.N) : (dats m 0 c).after 3 t = out0_3 c (grid0.coords t) (ms0_0 t) (hs0_0 t) (ms0_1 t) (hs0_1 t) (ms0_2 t) (hs0_2 t) (ms0_3 t) (hs0_3 t) scM0_0 (Memref.isWhole_whole _) scM0_1 (Memref.isWhole_whole _) (iblk m c 0 t) (iblk m c 1 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body obligation, at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t
    ∗ (dats m 0 c).leavesExact 2 t ∗ (dats m 0 c).leavesExact 3 t)

set_option maxHeartbeats 4800000 in
/-- The body at any point: the inputs' memrefs hold their blocks, so the body's run applies; the invariant hands it the
    two scratches at anything and takes them back at anything; each result block ends at its stores read back, because
    they cover it. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).owesAt () t.succ = (dats m 0 c).owesAt () t.castSucc from rfl]
  rw [show (dats m 0 c).Φ t.succ = Pipeline.ΦA spec0 c from rfl, show (dats m 0 c).Φ t.castSucc = Pipeline.ΦA spec0 c from rfl, PhiA0_eq]
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  unfold out0_2 out0_3; (try dsimp only)
  iintro ⟨⟨⟨HS0, HS1⟩, Hg⟩, Ho, ⟨%d0, H0⟩, ⟨%d1, H1⟩, ⟨%d2, H2⟩, ⟨%d3, H3⟩⟩
  iapply ((kernelRun0 c (grid0.coords t) (ms0_0 t) (hs0_0 t) (ms0_1 t) (hs0_1 t) (ms0_2 t) (hs0_2 t) (ms0_3 t) (hs0_3 t) scM0_0 (Memref.isWhole_whole _) scM0_1 (Memref.isWhole_whole _) (iblk m c 0 t) (iblk m c 1 t)).2.2 Set.univ _)
  isplitl [H0]; · iexact H0
  isplitl [H1]; · iexact H1
  isplitl [H2]; · iexists _; iexact H2
  isplitl [H3]; · iexists _; iexact H3
  isplitl [HS0]; · iexact HS0
  isplitl [HS1]; · iexact HS1
  iintro ⟨H0, H1, ⟨%e2, H2⟩, ⟨%e3, H3⟩, HS0, HS1⟩
  isplitl [HS0 HS1 Hg]
  · isplitl [HS0 HS1]
    · isplitl [HS0]; · iexact HS0
      iexact HS1
    iexact Hg
  isplitl [Ho]; · iexact Ho
  isplitl [H0]; · iexact H0
  isplitl [H1]; · iexact H1
  isplitl [H2]
  · unfold owns; iexists _; isplitr
    swap; · iexact H2
    ipureintro; exact View.read_writes_of_cover _ _ _ _ _ (cover0_2 c (grid0.coords t) (ms0_0 t) (hs0_0 t) (ms0_1 t) (hs0_1 t) (ms0_2 t) (hs0_2 t) (ms0_3 t) (hs0_3 t) scM0_0 (Memref.isWhole_whole _) scM0_1 (Memref.isWhole_whole _) (iblk m c 0 t) (iblk m c 1 t))
  unfold owns; iexists _; isplitr
  swap; · iexact H3
  ipureintro; exact View.read_writes_of_cover _ _ _ _ _ (cover0_3 c (grid0.coords t) (ms0_0 t) (hs0_0 t) (ms0_1 t) (hs0_1 t) (ms0_2 t) (hs0_2 t) (ms0_3 t) (hs0_3 t) scM0_0 (Memref.isWhole_whole _) scM0_1 (Memref.isWhole_whole _) (iblk m c 0 t) (iblk m c 1 t))

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point, and after the last it is given back. -/
theorem hin (c : Dev nD) : Pipeline.ΦA spec0 c ⊢ (dats m 0 c).Φ 0 := Idealize.SL.BI.Entails.refl _
theorem hout (c : Dev nD) : (dats m 0 c).Φ (Fin.last cfg0.N) ⊢ Pipeline.ΦA spec0 c := Idealize.SL.BI.Entails.refl _

end Cert.Kernel.Hand

end
-- ==== Proof.KBRun.lean ====
/-
  The run of the tiled attention program: @main as three segments — the reshape before the region, the region, the
  nine host operations after it — each entered from what the one before left.

  Every thread state between segments is the same shape: all the core's unscoped buffers held whole at a valuation,
  beside the generator register and what the core owes. The region is entered by handing the pipeline its three arrays
  — the flattened image once, split into two half shares for the two windows that read it — and left by taking them
  back: the image rejoined from its halves (both windows end where they began, neither writes it), the two result arrays
  at what the write-backs left. The valuation after the region is the one before it with those two arrays replaced.
-/
import proofs.«171277_j13898514170484_2_alg».proof.Proof.KBFrame
import Idealize.ShloMosaic.Lib.Pipeline.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers as the region leaves them -/

/-- Core `c`'s unscoped buffer contents at the region's exit: the entry contents with the two result arrays at what
    the pipeline's write-backs left in them. -/
def W1 (c : Dev nD) : Valuation τ sig (Elt F) :=
  Function.update (Function.update (V0 m c) (Proc.devRef .tc main_v1_0) ((dats m 0 c).arrAt 2 cfg0.N))
    (Proc.devRef .tc main_v1_1) ((dats m 0 c).arrAt 3 cfg0.N)

theorem W1_v1_1 (c : Dev nD) : W1 m c (Proc.devRef .tc main_v1_1) = (dats m 0 c).arrAt 3 cfg0.N := by
  unfold W1; rw [Function.update_self]

theorem W1_v1_0 (c : Dev nD) : W1 m c (Proc.devRef .tc main_v1_0) = (dats m 0 c).arrAt 2 cfg0.N := by
  unfold W1; rw [Function.update_of_ne (by decide), Function.update_self]

/-- Every other buffer is as the region found it. -/
theorem W1_of_ne (c : Dev nD) (b : Ref sig .tc) (h0 : b ≠ main_v1_0) (h1 : b ≠ main_v1_1) :
    W1 m c (Proc.devRef .tc b) = V m c b := by
  unfold W1
  rw [Function.update_of_ne (fun h => h1 (Proc.devRef_injective _ h)), Function.update_of_ne (fun h => h0 (Proc.devRef_injective _ h))]

/-! ## The arrays handed to the pipeline and taken back -/

/-- The three distinct buffers behind the four windows. -/
theorem arrRefs_eq : (Finset.univ.image (Pipeline.arrRef spec0) : Finset (Ref sig .tc)) = {main_v0, main_v1_0, main_v1_1} := by decide

/-- The shares: the flattened image halved between its two windows, the result arrays held whole. -/
theorem share0_0 (c : Dev nD) : (dats m 0 c).share 0 = fullShare.left := by
  unfold Dat.share; rw [if_neg (by decide)]; dsimp only [dats]
theorem share0_1 (c : Dev nD) : (dats m 0 c).share 1 = fullShare.right := by
  unfold Dat.share; rw [if_neg (by decide)]; dsimp only [dats]
theorem share0_2 (c : Dev nD) : (dats m 0 c).share 2 = fullShare := by
  unfold Dat.share; rw [if_pos (by decide)]
theorem share0_3 (c : Dev nD) : (dats m 0 c).share 3 = fullShare := by
  unfold Dat.share; rw [if_pos (by decide)]

/-- At entry each array is as the region finds it. -/
theorem arrAt_zero (c : Dev nD) (w : Fin cfg0.W) : (dats m 0 c).arrAt w 0 = V m c (Pipeline.arrRef spec0 w) :=
  (show (dats m 0 c).arrAt w 0 = (dats m 0 c).A w from rfl).trans (A_eq m c w)

omit [FloatOps F] in
/-- A conjunction over the three buffers, one by one. -/
theorem bigSep_arrRefs (Φ : Ref sig .tc → sProp 𝕄) :
    bigSep ({main_v0, main_v1_0, main_v1_1} : Finset (Ref sig .tc)) Φ = iprop(Φ main_v0 ∗ Φ main_v1_0 ∗ Φ main_v1_1) := by
  rw [bigSep_insert (by decide), bigSep_insert (by decide), bigSep_singleton]; rfl

/-- The pipeline's arrays, each a whole buffer, as points-tos of the buffers behind them at the proof data's shares. -/
theorem arrays_eq' (c : Dev nD) (G : (w : Fin cfg0.W) → Buf (Elt F) ((cfg0.win w).arr.view.loc (c.tc : Thread nD τ))) :
    (dats m 0 c).arrays G
      = bigSep Finset.univ fun w => (((c.tc : Thread nD τ).loc (Pipeline.arrRef spec0 w)) ↦{(dats m 0 c).share w} G w : sProp 𝕄) := by
  unfold Dat.arrays
  exact bigSep_congr fun w _ => by rw [(arr_whole0 w).set_eq_univ]

/-- Which buffer is behind each window. -/
theorem arrRef0_0 : Pipeline.arrRef spec0 0 = main_v0 := rfl
theorem arrRef0_1 : Pipeline.arrRef spec0 1 = main_v0 := rfl
theorem arrRef0_2 : Pipeline.arrRef spec0 2 = main_v1_0 := rfl
theorem arrRef0_3 : Pipeline.arrRef spec0 3 = main_v1_1 := rfl

omit [FloatOps F] in
/-- A points-to moved along an equation between references. -/
theorem pointsTo_ref_congr (c : Dev nD) (W : (b : Ref sig .tc) → Buf (Elt F) ((c.tc : Thread nD τ).loc b)) {b b' : Ref sig .tc} (h : b = b')
    (q : PosShare TreeShare) :
    ((((c.tc : Thread nD τ).loc b) ↦{q} W b) : sProp 𝕄) = (((c.tc : Thread nD τ).loc b') ↦{q} W b') := by
  subst h; rfl

/-- ENTRY: the three buffers, each whole at the full share, make the pipeline's four arrays — the flattened image
    split into a half share for each of the two windows that read it. -/
theorem hsplit (c : Dev nD) :
    (Pipeline.arrBufs spec0 c (V m c) : sProp 𝕄) ⊢ (dats m 0 c).arrays ((dats m 0 c).arrAt · 0) := by
  rw [arrays_eq', bigSep_W0]
  unfold Pipeline.arrBufs
  rw [arrRefs_eq, bigSep_arrRefs]
  beta_reduce
  rw [arrAt_zero, arrAt_zero, arrAt_zero, arrAt_zero, share0_0, share0_1, share0_2, share0_3,
    pointsTo_ref_congr c (V m c) arrRef0_0, pointsTo_ref_congr c (V m c) arrRef0_1,
    pointsTo_ref_congr c (V m c) arrRef0_2, pointsTo_ref_congr c (V m c) arrRef0_3]
  iintro ⟨H0, H2, H3⟩
  ihave H01 := (pointsTo_share (PosShare.mem_left_op_right fullShare)).1 $$ H0
  icases H01 with ⟨Hl, Hr⟩
  isplitl [Hl]; · iexact Hl
  isplitl [Hr]; · iexact Hr
  isplitl [H2]; · iexact H2
  iexact H3

/-- EXIT: the pipeline's four arrays after the last point give the three buffers back whole — the two halves of the
    flattened image rejoined, both at the contents the region found (an input's array is never written). -/
theorem hjoin (c : Dev nD) :
    (dats m 0 c).arrays ((dats m 0 c).arrAt · cfg0.N)
      ⊢ (Pipeline.arrBufs spec0 c (fun b => W1 m c (Proc.devRef .tc b)) : sProp 𝕄) := by
  rw [arrays_eq', bigSep_W0]
  unfold Pipeline.arrBufs
  rw [arrRefs_eq, bigSep_arrRefs]
  beta_reduce
  rw [W1_v1_0, W1_v1_1, W1_of_ne m c main_v0 (by decide) (by decide), share0_0, share0_1, share0_2, share0_3,
    (dats m 0 c).arrAt_in 0 rfl cfg0.N, (dats m 0 c).arrAt_in 1 rfl cfg0.N, A_eq, A_eq,
    pointsTo_ref_congr c (V m c) arrRef0_0, pointsTo_ref_congr c (V m c) arrRef0_1]
  iintro ⟨Hl, Hr, H2, H3⟩
  isplitl [Hl Hr]
  · iapply (pointsTo_share (PosShare.mem_left_op_right fullShare)).2
    isplitl [Hl]; · iexact Hl
    iexact Hr
  isplitl [H2]; · iexact H2
  iexact H3

/-- The buffers that bypass the region are the same before and after it. -/
theorem rest_W1 (c : Dev nD) :
    (Pipeline.unscopedRest spec0 c (fun b => W1 m c (Proc.devRef .tc b)) : sProp 𝕄) = Pipeline.unscopedRest spec0 c (V m c) := by
  unfold Pipeline.unscopedRest
  exact bigSep_congr fun b hb => by
    beta_reduce
    rw [W1_of_ne m c b
      (fun h => (Finset.mem_sdiff.mp hb).2 (h ▸ Finset.mem_image.mpr ⟨2, Finset.mem_univ _, rfl⟩))
      (fun h => (Finset.mem_sdiff.mp hb).2 (h ▸ Finset.mem_image.mpr ⟨3, Finset.mem_univ _, rfl⟩))]

/-! ## @main as segments -/

abbrev 𝒱₀ : Variants := Variants.none
/-- No core owes another anything: no level is assigned. -/
abbrev L : GSem nD τ sig → Finset Unit := fun _ => ∅
abbrev lv : GSem nD τ sig → Unit → ℕ := fun _ _ => 0
/-- No prefetched table. -/
abbrev adm : (p : Fin 1) → (pcfgs (F := F) p).Adm := fun p => (cfgs p).toPCfg_adm

/-- What rides beside the buffers through every segment: the generator register at some state and what the core owes. -/
abbrev R (c : Dev nD) : sProp 𝕄 :=
  iprop((∃ r, prngReg c r) ∗ ∃ W, owes (c : Thread nD τ) (0 : CellTallies nD τ sig Unit) W)

/-- The launch contents as a valuation. -/
abbrev Vl (c : Dev nD) : Valuation τ sig (Elt F) := fun b => m (c, b)

omit [FloatOps F] in
theorem hostOps0_fresh : ∀ op ∈ (hostOps0 : List (HloOp τ sig (Elt F))), op.fresh = ∅ := by
  intro _ h; (repeat (cases h with | head => rfl | tail _ h => ?_)); exact nomatch h

theorem hostOps1_fresh : ∀ op ∈ (hostOps1 : List (HloOp τ sig (Elt F))), op.fresh = ∅ := by
  intro _ h; (repeat (cases h with | head => rfl | tail _ h => ?_)); exact nomatch h

/-- The reshape before the region, over all the unscoped buffers. -/
def seg0 : Pipeline.HostSeg (Name := ℕ) (U := UR sig nD τ) (pcfgs (F := F)) defs₀ 𝒱₀ L lv :=
  Pipeline.HostSeg.ofOps _ _ _ _ _ (Pipeline.ucRefs τ sig) hostOps0
    (fun op h => Pipeline.sub_ucRefs op ((List.forall_iff_forall_mem.mp hostOps0_sub) op h)) hostOps0_fresh (Vl m) R

/-- The nine operations after the region, over all the unscoped buffers, from what the region left. -/
def seg1 : Pipeline.HostSeg (Name := ℕ) (U := UR sig nD τ) (pcfgs (F := F)) defs₀ 𝒱₀ L lv :=
  Pipeline.HostSeg.ofOps _ _ _ _ _ (Pipeline.ucRefs τ sig) hostOps1
    (fun op h => Pipeline.sub_ucRefs op ((List.forall_iff_forall_mem.mp hostOps1_sub) op h)) hostOps1_fresh (W1 m) R

set_option backward.isDefEq.respectTransparency.types false in
/-- THE REGION: entered from what the reshape left — the three array buffers into the pipeline (the image split
    between its two windows), the register into the invariant, every other buffer bypassing —, left with the image
    rejoined and the two result arrays at their final contents. -/
def reg0 : Pipeline.RegionSeg (pcfgs (F := F)) adm (dats m) () defs₀ 𝒱₀ L lv 0 where
  win := winFacts₀0
  block_pos := block_pos0
  stage_whole := stage_whole0
  K := PEmpty
  osem := fun k => k.elim
  ho := Pipeline.OwnSemFacts.none spec0
  hbody c := (body_obligation m c).loose
  hwaits := Pipeline.hwaits_of_owed_zero _ _ _ _ L lv 0 fun _ _ => rfl
  pre c := iprop(StableHlo.held (c : Thread nD τ) (Pipeline.ucRefs τ sig) (StableHlo.after hostOps0 (Vl m c)) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest spec0 c (V m c)
  hentry c := by
    rw [show StableHlo.held (c : Thread nD τ) (Pipeline.ucRefs τ sig) (StableHlo.after hostOps0 (Vl m c)) = unscopedBufs c (V m c)
      from (Pipeline.unscopedBufs_held c _).symm, Pipeline.unscopedBufs_split₀ cfgs 0 winFacts₀0.arr_unscoped c (V m c)]
    iintro ⟨⟨⟨Harr, Hrest⟩, ⟨Hg, HO⟩⟩, -, -⟩
    ihave Ha := (hsplit m c) $$ Harr
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hg]; · iexact Hg
    iexact Hrest
  hin c := by
    rw [show (dats m 0 c).Φ 0 = Pipeline.ΦA spec0 c from rfl]; unfold Pipeline.ΦA
    iintro ⟨Hg, -, Hr⟩
    isplitl [Hr]; · iexact Hr
    iexact Hg
  hout c := by
    rw [Pipeline.ownSems0_none, show (dats m 0 c).Φ (Fin.last cfg0.N) = Pipeline.ΦA spec0 c from rfl]; unfold Pipeline.ΦA
    iintro ⟨Hr, Hg⟩
    isplitl [Hg]; · iexact Hg
    isplitr; · iempintro
    iexact Hr
  hexit c := by
    rw [← Pipeline.unscopedBufs_held c (W1 m c), Pipeline.unscopedBufs_split₀ cfgs 0 winFacts₀0.arr_unscoped c, rest_W1]
    iintro ⟨Ha, HO, HY, HZ⟩
    ihave Hb := (hjoin m c) $$ Ha
    imodintro
    isplitl [Hb HZ]
    · isplitl [Hb]; · iexact Hb
      iexact HZ
    isplitl [HY]; · iexact HY
    unfold Pipeline.Dat.owesAt Pipeline.owesWithin
    icases HO with ⟨%W, -, HO⟩; iexists W; iexact HO

/-! ## The run -/

/-- Core `c`'s unscoped buffer contents when @main returns: what the nine operations after the region leave. -/
abbrev Wf (c : Dev nD) : Valuation τ sig (Elt F) := StableHlo.after hostOps1 (W1 m c)

/-- The last thread state. -/
abbrev Tn (c : Dev nD) : sProp 𝕄 :=
  iprop(StableHlo.held (c : Thread nD τ) (Pipeline.ucRefs τ sig) (Wf m c) ∗ ∃ r, prngReg c r)

/-- No operation of @main writes the argument: it ends as launched. -/
theorem Wf_arg0 (c : Dev nD) : Wf m c (Proc.devRef .tc main_arg0) = m ((c : Thread nD τ).loc main_arg0) := by
  have h1 : Wf m c (Proc.devRef .tc main_arg0) = W1 m c (Proc.devRef .tc main_arg0) := by
    show StableHlo.after hostOps1 _ (Proc.devRef .tc main_arg0) = _
    after_results
  rw [h1, W1_of_ne m c main_arg0 (by decide) (by decide)]
  show StableHlo.after hostOps0 (fun b => m (c, b)) (Proc.devRef .tc main_arg0) = _
  after_results

/-- What the run concludes on core `c`: the result buffer at what the operations after the region compute from the two
    result arrays the region left, the argument as launched. -/
def QC (c : Dev nD) (s : MemSt nD τ sig (Elt F)) : Prop :=
  s.mem ((c : Thread nD τ).loc main_v9) = Wf m c (Proc.devRef .tc main_v9)
    ∧ s.mem ((c : Thread nD τ).loc main_arg0) = m ((c : Thread nD τ).loc main_arg0)

set_option backward.isDefEq.respectTransparency.types false in
/-- At the compiled mesh, for any float instance, from any memory with zero counters: every weakly fair execution of
    @main on the TensorCores terminates, nothing faulting, and every final state has the result buffer at the host tail's
    value of the region's two result arrays and the argument unchanged. -/
theorem run_main : θ_run defs (onTc (τ := τ) (main (F := F))) ⟨m, fun _ => 0, ρ⟩ (fun r => ∀ c : Dev nD, QC m c r.2) :=
  Pipeline.θ_run_regions_kit (pcfgs (F := F)) adm (dats m) () cellOf_inj emb₁ defs₀ 𝒱₀ L lv m ρ main
    [.host (seg0 m), .region (reg0 m), .host (seg1 m)]
    (fun c Q => by rw [main_segs adm (dats m) () 𝒱₀ L lv (seg0 m) (seg1 m) (reg0 m) rfl rfl c])
    (by simp only [Pipeline.Seg.pipes_host, Pipeline.Seg.pipes_region, Pipeline.Seg.pipes_nil]; decide) (O₀ := 0) (hL := fun _ _ => rfl)
    (G := fun _ => iprop(emp)) (u₀ := initOf (Pipeline.cells cfgs cellOf_inj) (Pipeline.launchToks cfgs cellOf_inj))
    (hu₀ := by
      iintro Hu; imodintro
      isplitl [Hu]
      · iapply (show (ownU _ : sProp 𝕄) ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Vl m c) ∗ R c)) (Tₙ := Tn m)
    (hch := ⟨fun _ => .rfl, fun _ => .rfl, fun _ => .rfl, fun c => by
      show iprop(StableHlo.held (c : Thread nD τ) (Pipeline.ucRefs τ sig) (Wf m c) ∗ R c) ⊢ _
      iintro ⟨Hh, Hg, HO⟩
      isplitl [Hh Hg]
      · isplitl [Hh] <;> iassumption
      iexact HO⟩)
    (hinit := by
      refine Pipeline.initEach L lv fun c => ?_
      rw [show unscopedBufs c (fun b => m ((c : Thread nD τ).loc b)) = StableHlo.held (c : Thread nD τ) (Pipeline.ucRefs τ sig) (Vl m c)
        from Pipeline.unscopedBufs_held c (Vl m c)]
      iintro ⟨⟨Hh, -, HO, -, Hg, -⟩, -⟩
      imodintro
      isplitl [Hh]; · iexact Hh
      isplitl [Hg]; · iexists _; iexact Hg
      iexists ∅; iexact HO)
    (QY := QC m)
    (hfin := fun c s' => by
      dsimp only [Tn]
      rw [← Pipeline.unscopedBufs_held c (Wf m c)]
      unfold unscopedBufs
      iintro ⟨⟨Hh, -⟩, HSI⟩
      ihave Hr := (pointsTo_read_all _ (fun b : Ref sig .tc => (c : Thread nD τ).loc b) (fun b => Wf m c (Proc.devRef .tc b)) s') $$ [Hh HSI]
      · isplitl [Hh] <;> iassumption
      icases Hr with ⟨%h, HSI⟩
      imodintro
      isplitr
      · ipureintro
        exact ⟨h main_v9 (by decide), (h main_arg0 (by decide)).trans (Wf_arg0 m c)⟩
      iexact HSI)
    (hQ := fun _ h => h)

/-- info: 'Cert.Kernel.Hand.run_main' depends on axioms: [propext, Classical.choice, Quot.sound] -/
#guard_msgs in #print axioms run_main

/-- THE FRAME: the program runs to the end, faults nowhere, and leaves its argument as launched, at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun _ h c => (h c).2) (run_main m ρ)

end Cert.Kernel.Hand

end
-- ==== Proof.KIBody.lean ====
/-
  The kernel body of the tiled attention program, run once on any staging memrefs, for every float instance.

  A grid point is a pair (batch, column tile). The body receives four blocks — the column tile of the flattened image
  (window 0), the batch's whole slice of it (window 1), and the two result blocks (windows 2 and 3) — and two scratch
  buffers of its own: a running numerator [64, 512] and a running total [1, 1]. It zeroes both scratches, walks the eight
  row tiles of the slice in a counted loop (each trip adds the tile's contribution to both), then stores the numerator
  into window 2's block and the total, repeated along the lanes, into window 3's.  Both scratches are rewritten from zero
  at every point, so nothing is carried from one point to the next and the region's invariant only says that the scratch
  buffers are held at some contents.

  Here: the contents of every unscoped buffer when the region is entered (after the one reshape before it), a window's
  block at a point read off those contents, the body's run as a statement about ANY whole staging memrefs — what each
  result block is left holding is the list of stores the run itself finds —, that each list covers its block, and so what
  each result block holds afterwards whatever it held before.
-/
import proofs.«171277_j13898514170484_2_alg».proof.Proof.Gen.KernelIdeal.Skeleton
import proofs.«171277_j13898514170484_2_alg».proof.Proof.Gen.KernelIdeal.Loops
import proofs.«171277_j13898514170484_2_alg».proof.Proof.Gen.KernelIdeal.Launch
import proofs.«171277_j13898514170484_2_alg».proof.Proof.Gen.KernelIdeal.Points
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers as the region finds them -/

/-- Core `c`'s unscoped buffer contents when the region is entered: the launch contents after the reshape of the image. -/
abbrev V0 (c : Dev nD) : Valuation τ sig (Elt F) := StableHlo.after hostOps0 (fun b => m (c, b))
/-- The same read at a TensorCore reference. -/
abbrev V (c : Dev nD) (b : Ref sig .tc) : Buf (Elt F) ((c : Thread nD τ).loc b) := V0 m c (Proc.devRef .tc b)

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The staging memrefs at a point, and the scratches -/

abbrev ms0_0 (t : Fin cfg0.N) : Memref sig .tc .vmem S1x64x512 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x64x4096 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x64x512 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1x128 .f32 := win0_3.stage (cfg0.slots t 3)
abbrev hs0_3 (t : Fin cfg0.N) : (ms0_3 t).IsWhole := hstage0_3 ((cfg0.slots t 3).cast nbuf0_3)
/-- The running numerator and the running total: whole scoped buffers of the kernel's own. -/
abbrev scM0_0 : Memref sig .tc .vmem S64x512 .f32 := Memref.whole cc0_scratch0
abbrev scM0_1 : Memref sig .tc .vmem S1x1 .f32 := Memref.whole cc0_scratch1

/-- One staging buffer of each result window, through which its contents are stated (the choice does not matter once
    the stores cover the block). -/
abbrev VO0_2 : View sig .tc .vmem S1x64x512 .f32 := (Memref.whole cc0_stg2_0 : Memref sig .tc .vmem S1x64x512 .f32).view
abbrev VO0_3 : View sig .tc .vmem S1x1x128 .f32 := (Memref.whole cc0_stg3_0 : Memref sig .tc .vmem S1x1x128 .f32).view

/-- The region's invariant with the two scratches as memrefs owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

/-! ## The body on any staging memrefs -/

set_option maxHeartbeats 4000000 in
/-- What the body's stores leave in each result block, as pieces (last first), WITH the proof that on whole staging
    memrefs — the two input blocks at their contents, the result blocks and the scratches at anything — the body runs to
    the continuation holding the inputs as they were, each result block with its pieces written and the scratches at some
    contents. The counted loop is passed by its invariant, once, at a symbolic trip. The pieces are the witness the run
    finds. -/
noncomputable def kernelRun0 (c : Dev nD) (i : grid0.Coords)
    (arg2 : Memref sig .tc .vmem S1x64x512 .f32) (harg2 : arg2.IsWhole) (arg3 : Memref sig .tc .vmem S1x64x4096 .f32) (harg3 : arg3.IsWhole)
    (arg4 : Memref sig .tc .vmem S1x64x512 .f32) (harg4 : arg4.IsWhole) (arg5 : Memref sig .tc .vmem S1x1x128 .f32) (harg5 : arg5.IsWhole)
    (arg6 : Memref sig .tc .vmem S64x512 .f32) (harg6 : arg6.IsWhole) (arg7 : Memref sig .tc .vmem S1x1 .f32) (harg7 : arg7.IsWhole)
    (x0 : Vec F S1x64x512 .f32) (x1 : Vec F S1x64x4096 .f32) :
    Σ' (L2 : List (View.Piece (Elt F) S1x64x512 .f32)), { L3 : List (View.Piece (Elt F) S1x1x128 .f32) //
      ∀ (E : Set ℕ) (K : PUnit → sProp 𝕄),
        iprop(owns (c : Thread nD τ) arg2 fullShare x0 ∗ owns (c : Thread nD τ) arg3 fullShare x1
            ∗ (∃ d, owns (c : Thread nD τ) arg4 fullShare d) ∗ (∃ d, owns (c : Thread nD τ) arg5 fullShare d)
            ∗ (∃ d, owns (c : Thread nD τ) arg6 fullShare d) ∗ (∃ d, owns (c : Thread nD τ) arg7 fullShare d)
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L2)
                ∗ (∃ f, arg5.view.loc (c : Thread nD τ) ↦[arg5.view.set]{fullShare} arg5.view.writes (Elt F) f L3)
                ∗ (∃ d, owns (c : Thread nD τ) arg6 fullShare d) ∗ (∃ d, owns (c : Thread nD τ) arg7 fullShare d)) -∗ K ⟨⟩))
          ⊢ wp frame (wpE (defs₀ (F := F)) Variants.none c none) E
              (cc0__fused_kernel i arg2 harg2 arg3 harg3 arg4 harg4 arg5 harg5 arg6 harg6 arg7 harg7) K } := by
  refine ⟨?_, ?_, fun E K => ?run⟩
  case run =>
    simp only [cc0__fused_kernel_eq_skeleton]; unfold cc0__fused_kernel_skel
    unfold owns
    iintro ⟨⟨%f0, %hf0, H0⟩, ⟨%f1, %hf1, H1⟩, ⟨%d2, %f2, -, H2⟩, ⟨%d3, %f3, -, H3⟩, ⟨%d6, %f6, -, HS0⟩, ⟨%d7, %f7, -, HS1⟩, Hk⟩
    obtain rfl := harg2.eq_unread hf0; obtain rfl := harg3.eq_unread hf1
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [H3]; · iexists _; iexact H3
    isplitl [HS0]
    · iexists _; iexists _; isplitr
      swap; · iexact HS0
      ipureintro; rfl
    iexists _; iexists _; isplitr
    swap; · iexact HS1
    ipureintro; rfl

/-! ## What the result blocks hold afterwards -/

/-- The stores into window 2's block tile it: one store of the whole block. -/
theorem cover0_2 (c : Dev nD) (i : grid0.Coords)
    (arg2 : Memref sig .tc .vmem S1x64x512 .f32) (harg2 : arg2.IsWhole) (arg3 : Memref sig .tc .vmem S1x64x4096 .f32) (harg3 : arg3.IsWhole)
    (arg4 : Memref sig .tc .vmem S1x64x512 .f32) (harg4 : arg4.IsWhole) (arg5 : Memref sig .tc .vmem S1x1x128 .f32) (harg5 : arg5.IsWhole)
    (arg6 : Memref sig .tc .vmem S64x512 .f32) (harg6 : arg6.IsWhole) (arg7 : Memref sig .tc .vmem S1x1 .f32) (harg7 : arg7.IsWhole)
    (x0 : Vec F S1x64x512 .f32) (x1 : Vec F S1x64x4096 .f32) (y : S1x64x512.Idx) :
    ∃ pc ∈ (kernelRun0 c i arg2 harg2 arg3 harg3 arg4 harg4 arg5 harg5 arg6 harg6 arg7 harg7 x0 x1).1, y ∈ pc.1.set :=
  View.cover_of_tiledL (kernelRun0 c i arg2 harg2 arg3 harg3 arg4 harg4 arg5 harg5 arg6 harg6 arg7 harg7 x0 x1).1 S1x64x512.size (by sl_kernel_rfl) y

/-- What the body leaves in window 2's block: its stores read back over anything. -/
def out0_2 (c : Dev nD) (i : grid0.Coords)
    (arg2 : Memref sig .tc .vmem S1x64x512 .f32) (harg2 : arg2.IsWhole) (arg3 : Memref sig .tc .vmem S1x64x4096 .f32) (harg3 : arg3.IsWhole)
    (arg4 : Memref sig .tc .vmem S1x64x512 .f32) (harg4 : arg4.IsWhole) (arg5 : Memref sig .tc .vmem S1x1x128 .f32) (harg5 : arg5.IsWhole)
    (arg6 : Memref sig .tc .vmem S64x512 .f32) (harg6 : arg6.IsWhole) (arg7 : Memref sig .tc .vmem S1x1 .f32) (harg7 : arg7.IsWhole)
    (x0 : Vec F S1x64x512 .f32) (x1 : Vec F S1x64x4096 .f32) : Vec F S1x64x512 .f32 :=
  VO0_2.read (Elt F) (VO0_2.writes (Elt F) VO0_2.junk (kernelRun0 c i arg2 harg2 arg3 harg3 arg4 harg4 arg5 harg5 arg6 harg6 arg7 harg7 x0 x1).1)

/-- The stores into window 3's block tile it: one store of the whole block. -/
theorem cover0_3 (c : Dev nD) (i : grid0.Coords)
    (arg2 : Memref sig .tc .vmem S1x64x512 .f32) (harg2 : arg2.IsWhole) (arg3 : Memref sig .tc .vmem S1x64x4096 .f32) (harg3 : arg3.IsWhole)
    (arg4 : Memref sig .tc .vmem S1x64x512 .f32) (harg4 : arg4.IsWhole) (arg5 : Memref sig .tc .vmem S1x1x128 .f32) (harg5 : arg5.IsWhole)
    (arg6 : Memref sig .tc .vmem S64x512 .f32) (harg6 : arg6.IsWhole) (arg7 : Memref sig .tc .vmem S1x1 .f32) (harg7 : arg7.IsWhole)
    (x0 : Vec F S1x64x512 .f32) (x1 : Vec F S1x64x4096 .f32) (y : S1x1x128.Idx) :
    ∃ pc ∈ (kernelRun0 c i arg2 harg2 arg3 harg3 arg4 harg4 arg5 harg5 arg6 harg6 arg7 harg7 x0 x1).2.1, y ∈ pc.1.set :=
  View.cover_of_tiledL (kernelRun0 c i arg2 harg2 arg3 harg3 arg4 harg4 arg5 harg5 arg6 harg6 arg7 harg7 x0 x1).2.1 S1x1x128.size (by sl_kernel_rfl) y

/-- What the body leaves in window 3's block: its stores read back over anything. -/
def out0_3 (c : Dev nD) (i : grid0.Coords)
    (arg2 : Memref sig .tc .vmem S1x64x512 .f32) (harg2 : arg2.IsWhole) (arg3 : Memref sig .tc .vmem S1x64x4096 .f32) (harg3 : arg3.IsWhole)
    (arg4 : Memref sig .tc .vmem S1x64x512 .f32) (harg4 : arg4.IsWhole) (arg5 : Memref sig .tc .vmem S1x1x128 .f32) (harg5 : arg5.IsWhole)
    (arg6 : Memref sig .tc .vmem S64x512 .f32) (harg6 : arg6.IsWhole) (arg7 : Memref sig .tc .vmem S1x1 .f32) (harg7 : arg7.IsWhole)
    (x0 : Vec F S1x64x512 .f32) (x1 : Vec F S1x64x4096 .f32) : Vec F S1x1x128 .f32 :=
  VO0_3.read (Elt F) (VO0_3.writes (Elt F) VO0_3.junk (kernelRun0 c i arg2 harg2 arg3 harg3 arg4 harg4 arg5 harg5 arg6 harg6 arg7 harg7 x0 x1).2.1)

end Cert.KernelIdeal.Hand

end
-- ==== Proof.KIFrame.lean ====
/-
  The proof data of the tiled attention kernel's one pipeline, and the body obligation at every grid point.

  The flattened image is handed to the kernel twice: window 0 takes its column tile, window 1 the batch's whole slice.
  Both windows only read it, so each holds half of the array's share for the whole region, and the array is never
  written. Window 0's index moves at every point, window 1's only when the batch changes; either way the block the body
  finds in an input's staging buffer is that window's block of the array at the point. The two result windows are
  written back at every point, and what the body leaves in them is what its stores put there, a function of the two
  input blocks alone.
-/
import proofs.«171277_j13898514170484_2_alg».proof.Proof.KIBody
import Idealize.ShloMosaic.Lib.Pipeline.FrameBody

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## An input's staging buffer holds its block -/

/-- Window 0's current staging buffer holds its block at every point, for any proof data whose array is the
    region-entry contents and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Window 1's too, fetched at the point or not: where it is not fetched its index has not moved. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- No window is idle at any point. -/
theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel

/-! ## The proof data -/

/-- The proof data on core `c`: the arrays as the region finds them; after the body at point `t` each input's buffer at
    its block and each result's at what the body's stores left; the invariant the scratches at anything; nothing owed;
    the flattened image's share halved between its two windows. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => out0_2 c (grid0.coords t) (ms0_0 t) (hs0_0 t) (ms0_1 t) (hs0_1 t) (ms0_2 t) (hs0_2 t) (ms0_3 t) (hs0_3 t) scM0_0 (Memref.isWhole_whole _) scM0_1 (Memref.isWhole_whole _) (iblk m c 0 t) (iblk m c 1 t)
    | ⟨3, _⟩ => out0_3 c (grid0.coords t) (ms0_0 t) (hs0_0 t) (ms0_1 t) (hs0_1 t) (ms0_2 t) (hs0_2 t) (ms0_3 t) (hs0_3 t) scM0_0 (Memref.isWhole_whole _) scM0_1 (Memref.isWhole_whole _) (iblk m c 0 t) (iblk m c 1 t)
  Φ _ := Pipeline.ΦA spec0 c
  q w := match w with
    | ⟨0, _⟩ => fullShare.left
    | ⟨1, _⟩ => fullShare.right
    | ⟨2, _⟩ => fullShare
    | ⟨3, _⟩ => fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = out0_2 c (grid0.coords t) (ms0_0 t) (hs0_0 t) (ms0_1 t) (hs0_1 t) (ms0_2 t) (hs0_2 t) (ms0_3 t) (hs0_3 t) scM0_0 (Memref.isWhole_whole _) scM0_1 (Memref.isWhole_whole _) (iblk m c 0 t) (iblk m c 1 t) := by dsimp only [dats]
theorem after0_3 (c : Dev nD) (t : Fin cfg0.N) : (dats m 0 c).after 3 t = out0_3 c (grid0.coords t) (ms0_0 t) (hs0_0 t) (ms0_1 t) (hs0_1 t) (ms0_2 t) (hs0_2 t) (ms0_3 t) (hs0_3 t) scM0_0 (Memref.isWhole_whole _) scM0_1 (Memref.isWhole_whole _) (iblk m c 0 t) (iblk m c 1 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body obligation, at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t
    ∗ (dats m 0 c).leavesExact 2 t ∗ (dats m 0 c).leavesExact 3 t)

set_option maxHeartbeats 4800000 in
/-- The body at any point: the inputs' memrefs hold their blocks, so the body's run applies; the invariant hands it the
    two scratches at anything and takes them back at anything; each result block ends at its stores read back, because
    they cover it. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).owesAt () t.succ = (dats m 0 c).owesAt () t.castSucc from rfl]
  rw [show (dats m 0 c).Φ t.succ = Pipeline.ΦA spec0 c from rfl, show (dats m 0 c).Φ t.castSucc = Pipeline.ΦA spec0 c from rfl, PhiA0_eq]
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  unfold out0_2 out0_3; (try dsimp only)
  iintro ⟨⟨⟨HS0, HS1⟩, Hg⟩, Ho, ⟨%d0, H0⟩, ⟨%d1, H1⟩, ⟨%d2, H2⟩, ⟨%d3, H3⟩⟩
  iapply ((kernelRun0 c (grid0.coords t) (ms0_0 t) (hs0_0 t) (ms0_1 t) (hs0_1 t) (ms0_2 t) (hs0_2 t) (ms0_3 t) (hs0_3 t) scM0_0 (Memref.isWhole_whole _) scM0_1 (Memref.isWhole_whole _) (iblk m c 0 t) (iblk m c 1 t)).2.2 Set.univ _)
  isplitl [H0]; · iexact H0
  isplitl [H1]; · iexact H1
  isplitl [H2]; · iexists _; iexact H2
  isplitl [H3]; · iexists _; iexact H3
  isplitl [HS0]; · iexact HS0
  isplitl [HS1]; · iexact HS1
  iintro ⟨H0, H1, ⟨%e2, H2⟩, ⟨%e3, H3⟩, HS0, HS1⟩
  isplitl [HS0 HS1 Hg]
  · isplitl [HS0 HS1]
    · isplitl [HS0]; · iexact HS0
      iexact HS1
    iexact Hg
  isplitl [Ho]; · iexact Ho
  isplitl [H0]; · iexact H0
  isplitl [H1]; · iexact H1
  isplitl [H2]
  · unfold owns; iexists _; isplitr
    swap; · iexact H2
    ipureintro; exact View.read_writes_of_cover _ _ _ _ _ (cover0_2 c (grid0.coords t) (ms0_0 t) (hs0_0 t) (ms0_1 t) (hs0_1 t) (ms0_2 t) (hs0_2 t) (ms0_3 t) (hs0_3 t) scM0_0 (Memref.isWhole_whole _) scM0_1 (Memref.isWhole_whole _) (iblk m c 0 t) (iblk m c 1 t))
  unfold owns; iexists _; isplitr
  swap; · iexact H3
  ipureintro; exact View.read_writes_of_cover _ _ _ _ _ (cover0_3 c (grid0.coords t) (ms0_0 t) (hs0_0 t) (ms0_1 t) (hs0_1 t) (ms0_2 t) (hs0_2 t) (ms0_3 t) (hs0_3 t) scM0_0 (Memref.isWhole_whole _) scM0_1 (Memref.isWhole_whole _) (iblk m c 0 t) (iblk m c 1 t))

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point, and after the last it is given back. -/
theorem hin (c : Dev nD) : Pipeline.ΦA spec0 c ⊢ (dats m 0 c).Φ 0 := Idealize.SL.BI.Entails.refl _
theorem hout (c : Dev nD) : (dats m 0 c).Φ (Fin.last cfg0.N) ⊢ Pipeline.ΦA spec0 c := Idealize.SL.BI.Entails.refl _

end Cert.KernelIdeal.Hand

end
-- ==== Proof.KIRun.lean ====
/-
  The run of the tiled attention program: @main as three segments — the reshape before the region, the region, the
  nine host operations after it — each entered from what the one before left.

  Every thread state between segments is the same shape: all the core's unscoped buffers held whole at a valuation,
  beside the generator register and what the core owes. The region is entered by handing the pipeline its three arrays
  — the flattened image once, split into two half shares for the two windows that read it — and left by taking them
  back: the image rejoined from its halves (both windows end where they began, neither writes it), the two result arrays
  at what the write-backs left. The valuation after the region is the one before it with those two arrays replaced.
-/
import proofs.«171277_j13898514170484_2_alg».proof.Proof.KIFrame
import Idealize.ShloMosaic.Lib.Pipeline.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers as the region leaves them -/

/-- Core `c`'s unscoped buffer contents at the region's exit: the entry contents with the two result arrays at what
    the pipeline's write-backs left in them. -/
def W1 (c : Dev nD) : Valuation τ sig (Elt F) :=
  Function.update (Function.update (V0 m c) (Proc.devRef .tc main_v1_0) ((dats m 0 c).arrAt 2 cfg0.N))
    (Proc.devRef .tc main_v1_1) ((dats m 0 c).arrAt 3 cfg0.N)

theorem W1_v1_1 (c : Dev nD) : W1 m c (Proc.devRef .tc main_v1_1) = (dats m 0 c).arrAt 3 cfg0.N := by
  unfold W1; rw [Function.update_self]

theorem W1_v1_0 (c : Dev nD) : W1 m c (Proc.devRef .tc main_v1_0) = (dats m 0 c).arrAt 2 cfg0.N := by
  unfold W1; rw [Function.update_of_ne (by decide), Function.update_self]

/-- Every other buffer is as the region found it. -/
theorem W1_of_ne (c : Dev nD) (b : Ref sig .tc) (h0 : b ≠ main_v1_0) (h1 : b ≠ main_v1_1) :
    W1 m c (Proc.devRef .tc b) = V m c b := by
  unfold W1
  rw [Function.update_of_ne (fun h => h1 (Proc.devRef_injective _ h)), Function.update_of_ne (fun h => h0 (Proc.devRef_injective _ h))]

/-! ## The arrays handed to the pipeline and taken back -/

/-- The three distinct buffers behind the four windows. -/
theorem arrRefs_eq : (Finset.univ.image (Pipeline.arrRef spec0) : Finset (Ref sig .tc)) = {main_v0, main_v1_0, main_v1_1} := by decide

/-- The shares: the flattened image halved between its two windows, the result arrays held whole. -/
theorem share0_0 (c : Dev nD) : (dats m 0 c).share 0 = fullShare.left := by
  unfold Dat.share; rw [if_neg (by decide)]; dsimp only [dats]
theorem share0_1 (c : Dev nD) : (dats m 0 c).share 1 = fullShare.right := by
  unfold Dat.share; rw [if_neg (by decide)]; dsimp only [dats]
theorem share0_2 (c : Dev nD) : (dats m 0 c).share 2 = fullShare := by
  unfold Dat.share; rw [if_pos (by decide)]
theorem share0_3 (c : Dev nD) : (dats m 0 c).share 3 = fullShare := by
  unfold Dat.share; rw [if_pos (by decide)]

/-- At entry each array is as the region finds it. -/
theorem arrAt_zero (c : Dev nD) (w : Fin cfg0.W) : (dats m 0 c).arrAt w 0 = V m c (Pipeline.arrRef spec0 w) :=
  (show (dats m 0 c).arrAt w 0 = (dats m 0 c).A w from rfl).trans (A_eq m c w)

omit [FloatOps F] in
/-- A conjunction over the three buffers, one by one. -/
theorem bigSep_arrRefs (Φ : Ref sig .tc → sProp 𝕄) :
    bigSep ({main_v0, main_v1_0, main_v1_1} : Finset (Ref sig .tc)) Φ = iprop(Φ main_v0 ∗ Φ main_v1_0 ∗ Φ main_v1_1) := by
  rw [bigSep_insert (by decide), bigSep_insert (by decide), bigSep_singleton]; rfl

/-- The pipeline's arrays, each a whole buffer, as points-tos of the buffers behind them at the proof data's shares. -/
theorem arrays_eq' (c : Dev nD) (G : (w : Fin cfg0.W) → Buf (Elt F) ((cfg0.win w).arr.view.loc (c.tc : Thread nD τ))) :
    (dats m 0 c).arrays G
      = bigSep Finset.univ fun w => (((c.tc : Thread nD τ).loc (Pipeline.arrRef spec0 w)) ↦{(dats m 0 c).share w} G w : sProp 𝕄) := by
  unfold Dat.arrays
  exact bigSep_congr fun w _ => by rw [(arr_whole0 w).set_eq_univ]

/-- Which buffer is behind each window. -/
theorem arrRef0_0 : Pipeline.arrRef spec0 0 = main_v0 := rfl
theorem arrRef0_1 : Pipeline.arrRef spec0 1 = main_v0 := rfl
theorem arrRef0_2 : Pipeline.arrRef spec0 2 = main_v1_0 := rfl
theorem arrRef0_3 : Pipeline.arrRef spec0 3 = main_v1_1 := rfl

omit [FloatOps F] in
/-- A points-to moved along an equation between references. -/
theorem pointsTo_ref_congr (c : Dev nD) (W : (b : Ref sig .tc) → Buf (Elt F) ((c.tc : Thread nD τ).loc b)) {b b' : Ref sig .tc} (h : b = b')
    (q : PosShare TreeShare) :
    ((((c.tc : Thread nD τ).loc b) ↦{q} W b) : sProp 𝕄) = (((c.tc : Thread nD τ).loc b') ↦{q} W b') := by
  subst h; rfl

/-- ENTRY: the three buffers, each whole at the full share, make the pipeline's four arrays — the flattened image
    split into a half share for each of the two windows that read it. -/
theorem hsplit (c : Dev nD) :
    (Pipeline.arrBufs spec0 c (V m c) : sProp 𝕄) ⊢ (dats m 0 c).arrays ((dats m 0 c).arrAt · 0) := by
  rw [arrays_eq', bigSep_W0]
  unfold Pipeline.arrBufs
  rw [arrRefs_eq, bigSep_arrRefs]
  beta_reduce
  rw [arrAt_zero, arrAt_zero, arrAt_zero, arrAt_zero, share0_0, share0_1, share0_2, share0_3,
    pointsTo_ref_congr c (V m c) arrRef0_0, pointsTo_ref_congr c (V m c) arrRef0_1,
    pointsTo_ref_congr c (V m c) arrRef0_2, pointsTo_ref_congr c (V m c) arrRef0_3]
  iintro ⟨H0, H2, H3⟩
  ihave H01 := (pointsTo_share (PosShare.mem_left_op_right fullShare)).1 $$ H0
  icases H01 with ⟨Hl, Hr⟩
  isplitl [Hl]; · iexact Hl
  isplitl [Hr]; · iexact Hr
  isplitl [H2]; · iexact H2
  iexact H3

/-- EXIT: the pipeline's four arrays after the last point give the three buffers back whole — the two halves of the
    flattened image rejoined, both at the contents the region found (an input's array is never written). -/
theorem hjoin (c : Dev nD) :
    (dats m 0 c).arrays ((dats m 0 c).arrAt · cfg0.N)
      ⊢ (Pipeline.arrBufs spec0 c (fun b => W1 m c (Proc.devRef .tc b)) : sProp 𝕄) := by
  rw [arrays_eq', bigSep_W0]
  unfold Pipeline.arrBufs
  rw [arrRefs_eq, bigSep_arrRefs]
  beta_reduce
  rw [W1_v1_0, W1_v1_1, W1_of_ne m c main_v0 (by decide) (by decide), share0_0, share0_1, share0_2, share0_3,
    (dats m 0 c).arrAt_in 0 rfl cfg0.N, (dats m 0 c).arrAt_in 1 rfl cfg0.N, A_eq, A_eq,
    pointsTo_ref_congr c (V m c) arrRef0_0, pointsTo_ref_congr c (V m c) arrRef0_1]
  iintro ⟨Hl, Hr, H2, H3⟩
  isplitl [Hl Hr]
  · iapply (pointsTo_share (PosShare.mem_left_op_right fullShare)).2
    isplitl [Hl]; · iexact Hl
    iexact Hr
  isplitl [H2]; · iexact H2
  iexact H3

/-- The buffers that bypass the region are the same before and after it. -/
theorem rest_W1 (c : Dev nD) :
    (Pipeline.unscopedRest spec0 c (fun b => W1 m c (Proc.devRef .tc b)) : sProp 𝕄) = Pipeline.unscopedRest spec0 c (V m c) := by
  unfold Pipeline.unscopedRest
  exact bigSep_congr fun b hb => by
    beta_reduce
    rw [W1_of_ne m c b
      (fun h => (Finset.mem_sdiff.mp hb).2 (h ▸ Finset.mem_image.mpr ⟨2, Finset.mem_univ _, rfl⟩))
      (fun h => (Finset.mem_sdiff.mp hb).2 (h ▸ Finset.mem_image.mpr ⟨3, Finset.mem_univ _, rfl⟩))]

/-! ## @main as segments -/

abbrev 𝒱₀ : Variants := Variants.none
/-- No core owes another anything: no level is assigned. -/
abbrev L : GSem nD τ sig → Finset Unit := fun _ => ∅
abbrev lv : GSem nD τ sig → Unit → ℕ := fun _ _ => 0
/-- No prefetched table. -/
abbrev adm : (p : Fin 1) → (pcfgs (F := F) p).Adm := fun p => (cfgs p).toPCfg_adm

/-- What rides beside the buffers through every segment: the generator register at some state and what the core owes. -/
abbrev R (c : Dev nD) : sProp 𝕄 :=
  iprop((∃ r, prngReg c r) ∗ ∃ W, owes (c : Thread nD τ) (0 : CellTallies nD τ sig Unit) W)

/-- The launch contents as a valuation. -/
abbrev Vl (c : Dev nD) : Valuation τ sig (Elt F) := fun b => m (c, b)

omit [FloatOps F] in
theorem hostOps0_fresh : ∀ op ∈ (hostOps0 : List (HloOp τ sig (Elt F))), op.fresh = ∅ := by
  intro _ h; (repeat (cases h with | head => rfl | tail _ h => ?_)); exact nomatch h

theorem hostOps1_fresh : ∀ op ∈ (hostOps1 : List (HloOp τ sig (Elt F))), op.fresh = ∅ := by
  intro _ h; (repeat (cases h with | head => rfl | tail _ h => ?_)); exact nomatch h

/-- The reshape before the region, over all the unscoped buffers. -/
def seg0 : Pipeline.HostSeg (Name := ℕ) (U := UR sig nD τ) (pcfgs (F := F)) defs₀ 𝒱₀ L lv :=
  Pipeline.HostSeg.ofOps _ _ _ _ _ (Pipeline.ucRefs τ sig) hostOps0
    (fun op h => Pipeline.sub_ucRefs op ((List.forall_iff_forall_mem.mp hostOps0_sub) op h)) hostOps0_fresh (Vl m) R

/-- The nine operations after the region, over all the unscoped buffers, from what the region left. -/
def seg1 : Pipeline.HostSeg (Name := ℕ) (U := UR sig nD τ) (pcfgs (F := F)) defs₀ 𝒱₀ L lv :=
  Pipeline.HostSeg.ofOps _ _ _ _ _ (Pipeline.ucRefs τ sig) hostOps1
    (fun op h => Pipeline.sub_ucRefs op ((List.forall_iff_forall_mem.mp hostOps1_sub) op h)) hostOps1_fresh (W1 m) R

set_option backward.isDefEq.respectTransparency.types false in
/-- THE REGION: entered from what the reshape left — the three array buffers into the pipeline (the image split
    between its two windows), the register into the invariant, every other buffer bypassing —, left with the image
    rejoined and the two result arrays at their final contents. -/
def reg0 : Pipeline.RegionSeg (pcfgs (F := F)) adm (dats m) () defs₀ 𝒱₀ L lv 0 where
  win := winFacts₀0
  block_pos := block_pos0
  stage_whole := stage_whole0
  K := PEmpty
  osem := fun k => k.elim
  ho := Pipeline.OwnSemFacts.none spec0
  hbody c := (body_obligation m c).loose
  hwaits := Pipeline.hwaits_of_owed_zero _ _ _ _ L lv 0 fun _ _ => rfl
  pre c := iprop(StableHlo.held (c : Thread nD τ) (Pipeline.ucRefs τ sig) (StableHlo.after hostOps0 (Vl m c)) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest spec0 c (V m c)
  hentry c := by
    rw [show StableHlo.held (c : Thread nD τ) (Pipeline.ucRefs τ sig) (StableHlo.after hostOps0 (Vl m c)) = unscopedBufs c (V m c)
      from (Pipeline.unscopedBufs_held c _).symm, Pipeline.unscopedBufs_split₀ cfgs 0 winFacts₀0.arr_unscoped c (V m c)]
    iintro ⟨⟨⟨Harr, Hrest⟩, ⟨Hg, HO⟩⟩, -, -⟩
    ihave Ha := (hsplit m c) $$ Harr
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hg]; · iexact Hg
    iexact Hrest
  hin c := by
    rw [show (dats m 0 c).Φ 0 = Pipeline.ΦA spec0 c from rfl]; unfold Pipeline.ΦA
    iintro ⟨Hg, -, Hr⟩
    isplitl [Hr]; · iexact Hr
    iexact Hg
  hout c := by
    rw [Pipeline.ownSems0_none, show (dats m 0 c).Φ (Fin.last cfg0.N) = Pipeline.ΦA spec0 c from rfl]; unfold Pipeline.ΦA
    iintro ⟨Hr, Hg⟩
    isplitl [Hg]; · iexact Hg
    isplitr; · iempintro
    iexact Hr
  hexit c := by
    rw [← Pipeline.unscopedBufs_held c (W1 m c), Pipeline.unscopedBufs_split₀ cfgs 0 winFacts₀0.arr_unscoped c, rest_W1]
    iintro ⟨Ha, HO, HY, HZ⟩
    ihave Hb := (hjoin m c) $$ Ha
    imodintro
    isplitl [Hb HZ]
    · isplitl [Hb]; · iexact Hb
      iexact HZ
    isplitl [HY]; · iexact HY
    unfold Pipeline.Dat.owesAt Pipeline.owesWithin
    icases HO with ⟨%W, -, HO⟩; iexists W; iexact HO

/-! ## The run -/

/-- Core `c`'s unscoped buffer contents when @main returns: what the nine operations after the region leave. -/
abbrev Wf (c : Dev nD) : Valuation τ sig (Elt F) := StableHlo.after hostOps1 (W1 m c)

/-- The last thread state. -/
abbrev Tn (c : Dev nD) : sProp 𝕄 :=
  iprop(StableHlo.held (c : Thread nD τ) (Pipeline.ucRefs τ sig) (Wf m c) ∗ ∃ r, prngReg c r)

/-- No operation of @main writes the argument: it ends as launched. -/
theorem Wf_arg0 (c : Dev nD) : Wf m c (Proc.devRef .tc main_arg0) = m ((c : Thread nD τ).loc main_arg0) := by
  have h1 : Wf m c (Proc.devRef .tc main_arg0) = W1 m c (Proc.devRef .tc main_arg0) := by
    show StableHlo.after hostOps1 _ (Proc.devRef .tc main_arg0) = _
    after_results
  rw [h1, W1_of_ne m c main_arg0 (by decide) (by decide)]
  show StableHlo.after hostOps0 (fun b => m (c, b)) (Proc.devRef .tc main_arg0) = _
  after_results

/-- What the run concludes on core `c`: the result buffer at what the operations after the region compute from the two
    result arrays the region left, the argument as launched. -/
def QC (c : Dev nD) (s : MemSt nD τ sig (Elt F)) : Prop :=
  s.mem ((c : Thread nD τ).loc main_v9) = Wf m c (Proc.devRef .tc main_v9)
    ∧ s.mem ((c : Thread nD τ).loc main_arg0) = m ((c : Thread nD τ).loc main_arg0)

set_option backward.isDefEq.respectTransparency.types false in
/-- At the compiled mesh, for any float instance, from any memory with zero counters: every weakly fair execution of
    @main on the TensorCores terminates, nothing faulting, and every final state has the result buffer at the host tail's
    value of the region's two result arrays and the argument unchanged. -/
theorem run_main : θ_run defs (onTc (τ := τ) (main (F := F))) ⟨m, fun _ => 0, ρ⟩ (fun r => ∀ c : Dev nD, QC m c r.2) :=
  Pipeline.θ_run_regions_kit (pcfgs (F := F)) adm (dats m) () cellOf_inj emb₁ defs₀ 𝒱₀ L lv m ρ main
    [.host (seg0 m), .region (reg0 m), .host (seg1 m)]
    (fun c Q => by rw [main_segs adm (dats m) () 𝒱₀ L lv (seg0 m) (seg1 m) (reg0 m) rfl rfl c])
    (by simp only [Pipeline.Seg.pipes_host, Pipeline.Seg.pipes_region, Pipeline.Seg.pipes_nil]; decide) (O₀ := 0) (hL := fun _ _ => rfl)
    (G := fun _ => iprop(emp)) (u₀ := initOf (Pipeline.cells cfgs cellOf_inj) (Pipeline.launchToks cfgs cellOf_inj))
    (hu₀ := by
      iintro Hu; imodintro
      isplitl [Hu]
      · iapply (show (ownU _ : sProp 𝕄) ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Vl m c) ∗ R c)) (Tₙ := Tn m)
    (hch := ⟨fun _ => .rfl, fun _ => .rfl, fun _ => .rfl, fun c => by
      show iprop(StableHlo.held (c : Thread nD τ) (Pipeline.ucRefs τ sig) (Wf m c) ∗ R c) ⊢ _
      iintro ⟨Hh, Hg, HO⟩
      isplitl [Hh Hg]
      · isplitl [Hh] <;> iassumption
      iexact HO⟩)
    (hinit := by
      refine Pipeline.initEach L lv fun c => ?_
      rw [show unscopedBufs c (fun b => m ((c : Thread nD τ).loc b)) = StableHlo.held (c : Thread nD τ) (Pipeline.ucRefs τ sig) (Vl m c)
        from Pipeline.unscopedBufs_held c (Vl m c)]
      iintro ⟨⟨Hh, -, HO, -, Hg, -⟩, -⟩
      imodintro
      isplitl [Hh]; · iexact Hh
      isplitl [Hg]; · iexists _; iexact Hg
      iexists ∅; iexact HO)
    (QY := QC m)
    (hfin := fun c s' => by
      dsimp only [Tn]
      rw [← Pipeline.unscopedBufs_held c (Wf m c)]
      unfold unscopedBufs
      iintro ⟨⟨Hh, -⟩, HSI⟩
      ihave Hr := (pointsTo_read_all _ (fun b : Ref sig .tc => (c : Thread nD τ).loc b) (fun b => Wf m c (Proc.devRef .tc b)) s') $$ [Hh HSI]
      · isplitl [Hh] <;> iassumption
      icases Hr with ⟨%h, HSI⟩
      imodintro
      isplitr
      · ipureintro
        exact ⟨h main_v9 (by decide), (h main_arg0 (by decide)).trans (Wf_arg0 m c)⟩
      iexact HSI)
    (hQ := fun _ h => h)

/-- info: 'Cert.KernelIdeal.Hand.run_main' depends on axioms: [propext, Classical.choice, Quot.sound] -/
#guard_msgs in #print axioms run_main

/-- THE FRAME: the program runs to the end, faults nowhere, and leaves its argument as launched, at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun _ h c => (h c).2) (run_main m ρ)

end Cert.KernelIdeal.Hand

end
-- ==== Proof.LibMatmulTN.lean ====
/-
  The hardware matrix product with the dimension numbers "contract axis 0 of both operands" — a K×M operand against
  a K×N operand, that is the product of the transpose of the first with the second — read at one entry on the
  extended reals: into a zero accumulator it is the plain sum over the K contracted positions of the products of the
  two columns' entries.
-/
import Idealize.ShloMosaic.Lib.ValueIdx
import Idealize.ShloMosaic.PureOps.Ideal.Laws

noncomputable section

open scoped BigOperators

namespace Cert.Lib.MatmulTN

open Idealize.ShloMosaic Idealize.ShloMosaic.ValueIdx

/-- A matrix product contracting axis 0 of a K×M operand with axis 0 of a K×N operand, accumulated into the zero
    splat, read at entry (a, b) at the ideal values: the sum over the K contracted positions c of the left operand at
    (c, a) times the right operand at (c, b). -/
theorem matmul_zero_tn_apply {M N K : Nat} {φ₁ φ₂ : FTy}
    (wf : DotDims.WF ⟨2, ![K, M]⟩ ⟨2, ![K, N]⟩ ⟨2, ![M, N]⟩ [0] [0] [1] [1] [] [])
    (prec : Option ContractPrecision) (A : FVec Ideal ⟨2, ![K, M]⟩ φ₁) (B : FVec Ideal ⟨2, ![K, N]⟩ φ₂)
    (a : Fin M) (b : Fin N) :
    FloatOps.matmul (⟨[0], [0], [1], [1], [], [], wf⟩ : DotDims ⟨2, ![K, M]⟩ ⟨2, ![K, N]⟩ ⟨2, ![M, N]⟩) prec A B
        (constant ⟨2, ![M, N]⟩ .f32 0x00000000#32) (ix2 a b)
      = ∑ c : Fin K, A (ix2 c a) * B (ix2 c b) := by
  rw [Ideal.matmul_constant_zero_apply,
    ← Equiv.sum_comp (contrEquiv1 (⟨[0], [0], [1], [1], [], [], wf⟩ : DotDims ⟨2, ![K, M]⟩ ⟨2, ![K, N]⟩ ⟨2, ![M, N]⟩) K rfl rfl).symm]
  refine Finset.sum_congr rfl fun c _ => ?_
  have hc := contrEquiv1_symm_val
    (⟨[0], [0], [1], [1], [], [], wf⟩ : DotDims ⟨2, ![K, M]⟩ ⟨2, ![K, N]⟩ ⟨2, ![M, N]⟩) K rfl rfl c
  have hl : (⟨[0], [0], [1], [1], [], [], wf⟩ : DotDims ⟨2, ![K, M]⟩ ⟨2, ![K, N]⟩ ⟨2, ![M, N]⟩).lhsIdx (ix2 a b)
      ((contrEquiv1 _ K rfl rfl).symm c) = ix2 c a := by
    funext ax; apply Fin.ext
    match ax with
    | ⟨0, _⟩ => simp [DotDims.lhsIdx]; exact hc
    | ⟨1, _⟩ => simp [DotDims.lhsIdx]; rfl
  have hr : (⟨[0], [0], [1], [1], [], [], wf⟩ : DotDims ⟨2, ![K, M]⟩ ⟨2, ![K, N]⟩ ⟨2, ![M, N]⟩).rhsIdx (ix2 a b)
      ((contrEquiv1 _ K rfl rfl).symm c) = ix2 c b := by
    funext ax; apply Fin.ext
    match ax with
    | ⟨0, _⟩ => simp [DotDims.rhsIdx]; exact hc
    | ⟨1, _⟩ => simp [DotDims.rhsIdx]; rfl
  rw [hl, hr]

end Cert.Lib.MatmulTN

end
-- ==== Proof.LibMatmulNN.lean ====
/-
  A matrix product read at an entry, at the ideal instance.

  For a `tpu.matmul` whose dimension numbers are the plain ones — the left operand M×K contracted on its second axis,
  the right operand K×N contracted on its first, no batch axis — into the zero accumulator, the entry at row `a` and
  column `b` is the textbook sum over `k : Fin K` of `lhs (a, k) · rhs (k, b)` on the extended reals: the
  contraction's one-axis index set is identified with `Fin K` and each operand index is named by its coordinates.
  The lemma is stated for any dimension-number record with those five lists, so it applies to every printed record
  of this form whatever the extents.
-/
import Idealize.ShloMosaic.PureOps.Ideal.Laws
import Idealize.ShloMosaic.Lib.ValueIdx

noncomputable section

open scoped BigOperators

namespace Cert.LibMatmulNN

open Idealize.ShloMosaic Idealize.ShloMosaic.ValueIdx

variable {M K N : Nat} {φ₁ φ₂ : FTy}

/-- The contraction shape of a record with one left contracting axis has rank one. -/
theorem contr_rank (d : DotDims ⟨2, ![M, K]⟩ ⟨2, ![K, N]⟩ ⟨2, ![M, N]⟩) (hlc : d.lhsContracting = [1]) :
    d.contr.rank = 1 := by
  rw [d.rank_contr, hlc]; rfl

/-- Its one extent is the left operand's second. -/
theorem contr_size (d : DotDims ⟨2, ![M, K]⟩ ⟨2, ![K, N]⟩ ⟨2, ![M, N]⟩) (hlc : d.lhsContracting = [1]) :
    d.contr.size ⟨0, by rw [contr_rank d hlc]; exact Nat.one_pos⟩ = K := by
  have h := d.size_contr 0 (by rw [hlc]; exact Nat.one_pos)
  rw [h]
  simp only [hlc, List.getElem_cons_zero]
  rfl

/-- A rank-2 index read at a position known to be the first is its first coordinate. -/
theorem ix2_val_zero {n0 n1 : Nat} (a : Fin n0) (b : Fin n1) (p : Nat) (hp : p < 2) (h : p = 0) :
    (ix2 a b ⟨p, hp⟩).val = a.val := by subst h; rfl

/-- At a position known to be the second, its second coordinate. -/
theorem ix2_val_one {n0 n1 : Nat} (a : Fin n0) (b : Fin n1) (p : Nat) (hp : p < 2) (h : p = 1) :
    (ix2 a b ⟨p, hp⟩).val = b.val := by subst h; rfl

/-- The left operand's index at output `(a, b)` and contraction position `k` is `(a, k)`. -/
theorem lhsIdx_eq (d : DotDims ⟨2, ![M, K]⟩ ⟨2, ![K, N]⟩ ⟨2, ![M, N]⟩)
    (hlc : d.lhsContracting = [1]) (hln : d.lhsNonContracting = [0]) (hlb : d.lhsBatch = [])
    (a : Fin M) (b : Fin N) (k : Fin K) :
    d.lhsIdx (ix2 a b) ((contrEquiv1 d K (contr_rank d hlc) (contr_size d hlc)).symm k) = ix2 a k := by
  funext c
  apply Fin.ext
  match c with
  | ⟨0, _⟩ =>
    show (d.lhsIdx (ix2 a b) _ (0 : Fin 2)).val = a.val
    have hnb : (0 : Fin 2) ∉ d.lhsBatch := by rw [hlb]; exact List.not_mem_nil
    have hn : (0 : Fin 2) ∈ d.lhsNonContracting := by rw [hln]; exact List.mem_singleton.mpr rfl
    unfold DotDims.lhsIdx
    rw [dif_neg hnb, dif_pos hn]
    simp only [Fin.val_cast]
    exact ix2_val_zero a b _ _ (by simp [hlb, hln])
  | ⟨1, _⟩ =>
    show (d.lhsIdx (ix2 a b) _ (1 : Fin 2)).val = k.val
    rw [DotDims.lhsIdx_val_of_single d hlc]
    exact contrEquiv1_symm_val d K (contr_rank d hlc) (contr_size d hlc) k

/-- The right operand's index there is `(k, b)`. -/
theorem rhsIdx_eq (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (a : Fin M) (b : Fin N) (k : Fin K) :
    d.rhsIdx (ix2 a b) ((contrEquiv1 d K (contr_rank d hlc) (contr_size d hlc)).symm k) = ix2 k b := by
  funext c
  apply Fin.ext
  match c with
  | ⟨0, _⟩ =>
    show (d.rhsIdx (ix2 a b) _ (0 : Fin 2)).val = k.val
    rw [DotDims.rhsIdx_val_of_single d hrc]
    exact contrEquiv1_symm_val d K (contr_rank d hlc) (contr_size d hlc) k
  | ⟨1, _⟩ =>
    show (d.rhsIdx (ix2 a b) _ (1 : Fin 2)).val = b.val
    have hnb : (1 : Fin 2) ∉ d.rhsBatch := by rw [hrb]; exact List.not_mem_nil
    have hn : (1 : Fin 2) ∈ d.rhsNonContracting := by rw [hrn]; exact List.mem_singleton.mpr rfl
    unfold DotDims.rhsIdx
    rw [dif_neg hnb, dif_pos hn]
    simp only [Fin.val_cast]
    exact ix2_val_one a b _ _ (by simp [hlb, hln, hrn])

/-- A plain matrix product into the zero accumulator, read at the entry `(a, b)`: the sum over `k` of the left
    operand's `(a, k)` times the right operand's `(k, b)`. -/
theorem matmul_zero_apply (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision)
    (lhs : FVec Ideal ⟨2, ![M, K]⟩ φ₁) (rhs : FVec Ideal ⟨2, ![K, N]⟩ φ₂) (a : Fin M) (b : Fin N) :
    FloatOps.matmul d prec lhs rhs (constant (F := Ideal) ⟨2, ![M, N]⟩ .f32 0x00000000#32) (ix2 a b)
      = ∑ k : Fin K, lhs (ix2 a k) * rhs (ix2 k b) := by
  rw [Ideal.matmul_constant_zero_apply]
  rw [← Equiv.sum_comp (contrEquiv1 d K (contr_rank d hlc) (contr_size d hlc)).symm]
  refine Finset.sum_congr rfl fun k _ => ?_
  rw [lhsIdx_eq d hlc hln hlb a b k, rhsIdx_eq d hlc hrc hln hrn hlb hrb a b k]

/-- The same for the product written with the vector operation `matmul`, as a printed kernel body applies it. -/
theorem matmul_zero_apply' (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision)
    (lhs : FVec Ideal ⟨2, ![M, K]⟩ φ₁) (rhs : FVec Ideal ⟨2, ![K, N]⟩ φ₂) (a : Fin M) (b : Fin N) :
    matmul d prec lhs rhs (constant (F := Ideal) ⟨2, ![M, N]⟩ .f32 0x00000000#32) (ix2 a b)
      = ∑ k : Fin K, lhs (ix2 a k) * rhs (ix2 k b) :=
  matmul_zero_apply d hlc hrc hln hrn hlb hrb prec lhs rhs a b

end Cert.LibMatmulNN

end
-- ==== Proof.PayloadAt.lean ====
/-
  The idealized kernel body's arithmetic read at one index, on the extended reals.

  The body's pure values are eight terms over the vectors it loads. Here each is read at an index given by its
  coordinates: the tile pair's weights are the exponential of the inner product of two columns over the 64 channels;
  the running total gains the sum of the 512 × 512 weights of the tile pair; the running numerator gains, at entry
  (c, p), the sum over the row tile's positions q of the row tile's entry (c, q) times the weight of the pair (q, p);
  the two initial stores are zero; the two final stores copy the numerator and splat the total.
-/
import proofs.«171277_j13898514170484_2_alg».proof.Proof.Gen.KernelIdeal.Skeleton
import proofs.«171277_j13898514170484_2_alg».proof.Proof.LibMatmulTN
import proofs.«171277_j13898514170484_2_alg».proof.Proof.LibMatmulNN
import Idealize.ShloMosaic.Lib.ValueIdx
import Idealize.ShloMosaic.Lib.ValueLayout
import Idealize.ShloMosaic.Lib.Pipeline.Value
import Idealize.ShloMosaic.PureOps.Ideal.Laws

set_option synthInstance.maxSize 4096

noncomputable section

open scoped BigOperators

namespace Cert.KernelIdeal.PayloadAt

open Idealize.ShloMosaic Idealize.SL.Sem Idealize.ShloMosaic.ValueIdx
open Cert.KernelIdeal.Gen

/-- The row tile viewed as a matrix: entry (c, q) of the [64, 512] view is entry (0, c, q) of the block. -/
theorem pay3_apply (v24 : Vec Ideal S1x64x512 .f32) (c : Fin 64) (q : Fin 512) :
    k0_pay3 (F := Ideal) v24 (ix2 c q) = v24 (ix3 0 c q) := by
  unfold k0_pay3
  exact shapeCast_1ab_ab_apply v24 _ c q

/-- The weight of the pair (q, p): the exponential of the inner product of column q of the row tile and column p of
    the column tile. -/
theorem pay4_apply (v8 v24 : Vec Ideal S1x64x512 .f32) (q p : Fin 512) :
    k0_pay4 (F := Ideal) v8 v24 (ix2 q p) = Ideal.exp (∑ c : Fin 64, v24 (ix3 0 c q) * v8 (ix3 0 c p)) := by
  unfold k0_pay4
  show Ideal.exp (matmul dot_S64x512_S64x512_S512x512_0_0_1_1_n_n (some .fp32) (k0_pay3 v24)
      (shapeCast S64x512 v8 shapeCasts_S1x64x512_S64x512) (constant S512x512 .f32 0x00000000#32) (ix2 q p)) = _
  refine congrArg Ideal.exp ?_
  refine (Cert.Lib.MatmulTN.matmul_zero_tn_apply (M := 512) (N := 512) (K := 64)
    dot_S64x512_S64x512_S512x512_0_0_1_1_n_n_wf (some .fp32) (k0_pay3 v24)
    (shapeCast S64x512 v8 shapeCasts_S1x64x512_S64x512) q p).trans ?_
  refine Finset.sum_congr rfl fun c _ => ?_
  rw [pay3_apply, shapeCast_1ab_ab_apply]

/-- The running numerator after one more row tile, at entry (c, p): what it held plus the sum over the row tile's
    positions q of the row tile's entry (c, q) times the weight of the pair (q, p). -/
theorem pay6_apply (v8 v24 : Vec Ideal S1x64x512 .f32) (v39 : Vec Ideal S64x512 .f32) (c : Fin 64) (p : Fin 512) :
    k0_pay6 (F := Ideal) v8 v24 v39 (ix2 c p)
      = v39 (ix2 c p) + ∑ q : Fin 512, v24 (ix3 0 c q) * k0_pay4 (F := Ideal) v8 v24 (ix2 q p) := by
  unfold k0_pay6
  rw [shapeCast_self]
  show v39 (ix2 c p) + matmul dot_S64x512_S512x512_S64x512_1_0_0_1_n_n none (k0_pay3 v24) (k0_pay4 v8 v24)
      (constant S64x512 .f32 0x00000000#32) (ix2 c p) = _
  refine congrArg (v39 (ix2 c p) + ·) ?_
  refine (Cert.LibMatmulNN.matmul_zero_apply' (M := 64) (K := 512) (N := 512)
    dot_S64x512_S512x512_S64x512_1_0_0_1_n_n rfl rfl rfl rfl rfl rfl none (k0_pay3 v24) (k0_pay4 v8 v24) c p).trans ?_
  refine Finset.sum_congr rfl fun q _ => ?_
  rw [pay3_apply]

/-- The numerator's initial store is zero at every entry. -/
theorem pay1_apply (j : S64x512.Idx) : k0_pay1 (F := Ideal) j = 0 := by
  unfold k0_pay1
  rw [shapeCast_self]
  exact Ideal.ofBits_zero_f32

/-- The total's initial store is zero. -/
theorem pay2_apply (j : S1x1.Idx) : k0_pay2 (F := Ideal) j = 0 := by
  unfold k0_pay2
  rw [shapeCast_self]
  exact Ideal.ofBits_zero_f32

/-- The numerator's final store copies it: entry (0, c, p) of the [1, 64, 512] block is entry (c, p). -/
theorem pay7_apply (v11 : Vec Ideal S64x512 .f32) (c : Fin 64) (p : Fin 512) :
    k0_pay7 (F := Ideal) v11 (ix3 0 c p) = v11 (ix2 c p) := by
  unfold k0_pay7
  exact shapeCast_ab_1ab_apply v11 _ 0 c p

/-- The total's final store splats its one entry over the 128 lanes. -/
theorem pay8_apply (v15 : Vec Ideal S1x1 .f32) (j : S1x1x128.Idx) :
    k0_pay8 (F := Ideal) v15 j = v15 (ix2 0 0) := by
  unfold k0_pay8
  rw [broadcast_apply]
  unfold extractAt
  refine congrArg v15 (funext fun a => ?_)
  match a with
  | ⟨0, _⟩ => rfl
  | ⟨1, _⟩ => rfl

end Cert.KernelIdeal.PayloadAt

end
-- ==== Proof.PayloadSum.lean ====
/-
  The idealized kernel body's running total read at its one index, on the extended reals: one more row tile adds the
  sum of the 512 × 512 weights of the tile pair.

  The body reshapes the weights to [1, 512, 512], sums over the two long axes into a one-entry array, reshapes that to
  [1, 1, 1], reads its entry and adds it to what the total held. A sum into a shape of unit axes is the sum over every
  index of the source; the reshape matches the source's indices one to one with the [512, 512] array's; and a sum over
  a rank-2 index set is the double sum over its two coordinates.
-/
import proofs.«171277_j13898514170484_2_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

set_option synthInstance.maxSize 4096

noncomputable section

open scoped BigOperators

namespace Cert.KernelIdeal.PayloadSum

open Idealize.ShloMosaic Idealize.SL.Sem Idealize.ShloMosaic.ValueIdx
open Cert.KernelIdeal.Gen

/-- A sum over every index of a reshaped array is the sum over every index of the array: the reshape matches the two
    index sets one to one. -/
theorem sum_shapeCast {s t : Shape} (x : s.Idx → EReal) (h : s.ShapeCasts t) :
    ∑ i : t.Idx, shapeCast t x h i = ∑ k : s.Idx, x k :=
  Equiv.sum_comp (Shape.reshapeEquiv h) x

/-- Every axis of the one-entry shape is a unit axis. -/
theorem S1_unit : ∀ b : Fin S1.rank, S1.size b = 1 := fun b => by
  match b with
  | ⟨0, _⟩ => rfl

/-- The running total after one more row tile: what it held plus the sum of the 512 × 512 weights of the tile pair. -/
theorem pay5_apply (v8 v24 : Vec Ideal S1x64x512 .f32) (v28 : Vec Ideal S1x1 .f32) :
    k0_pay5 (F := Ideal) v8 v24 v28 (ix2 0 0)
      = v28 (ix2 0 0) + ∑ q : Fin 512, ∑ p : Fin 512, k0_pay4 (F := Ideal) v8 v24 (ix2 q p) := by
  unfold k0_pay5
  rw [shapeCast_self]
  refine congrArg (v28 (ix2 0 0) + ·) ?_
  refine Eq.trans ?_ (sum_idx2 (k0_pay4 (F := Ideal) v8 v24))
  refine Eq.trans ?_ (sum_shapeCast (k0_pay4 (F := Ideal) v8 v24) shapeCasts_S512x512_S1x512x512)
  rw [broadcast_apply]
  unfold extractAt
  refine (shapeCast_apply _ shapeCasts_S1_S1x1x1 _ (ix1 (0 : Fin 1)) ?_).trans ?_
  · rw [Shape.rowMajor_val_one, Shape.rowMajor_val_three]
    rfl
  · exact Ideal.multiReduction_add_total _ _ reduces_S1x512x512_S1 S1_unit _ _ (ix1 (0 : Fin 1))

end Cert.KernelIdeal.PayloadSum

end
-- ==== Proof.AttnSpec.lean ====
/-
  The mathematics both programs compute, stated once over the flattened image `f : [4, 64, 4096]` on the extended
  reals, index by index, and importing no program.

  For a batch `b`, columns `n` and `m` of `f` have the inner product `gram f b n m = ∑ c, f(b,c,n)·f(b,c,m)`; the
  unnormalised attention weight is `wt f b n m = exp (gram f b n m)`; `total f b` is the sum of all 4096 × 4096 weights
  of the batch; and the result is `out f b c m = ∑ n, f(b,c,n) · (wt f b n m / total f b)`: each weight is divided by
  the batch's total BEFORE the sum over `n`.

  The tiled road reaches the same number another way. The long axis is cut into 8 tiles of 512 positions
  (`pos k q = 512·k + q`). For a fixed column tile `mi` it walks the row tiles `k = 0, …, 7`, keeping a running
  numerator `runNumer` (to which tile `k` adds `∑ q, f(b,c,pos k q) · wt f b (pos k q) (pos mi p)`) and a running total
  `runTotal` (to which tile `k` adds the sum of the 512 × 512 weights of the tile pair). Both start at zero. The total
  of the batch is then the sum over the 8 column tiles of `runTotal … 8`, and the quotient is taken AFTER the sum over
  `n`: `outK`.  That `outK = out` needs every entry of `f` to be a real number: moving a division across a sum fails
  at the infinities.
-/
import Idealize.ShloMosaic.PureOps.Ideal.Laws
import Idealize.ShloMosaic.Lib.ValueIdx

noncomputable section

namespace Cert.Attn

open Idealize.ShloMosaic Idealize.ShloMosaic.ValueIdx
open scoped BigOperators

/-- The flattened image's shape: batch, channel, position. -/
abbrev SF : Shape := ⟨3, ![4, 64, 4096]⟩

/-- Position `q` of tile `k` on the long axis. -/
def pos (k : Fin 8) (q : Fin 512) : Fin 4096 := ⟨512 * k.val + q.val, by omega⟩

variable (f : SF.Idx → EReal)

/-- The inner product of columns `n` and `m` of batch `b`, over the 64 channels. -/
def gram (b : Fin 4) (n m : Fin 4096) : EReal := ∑ c : Fin 64, f (ix3 b c n) * f (ix3 b c m)

/-- The unnormalised weight of the pair `(n, m)`. -/
def wt (b : Fin 4) (n m : Fin 4096) : EReal := Ideal.exp (gram f b n m)

/-- The sum of every weight of batch `b`. -/
def total (b : Fin 4) : EReal := ∑ n : Fin 4096, ∑ m : Fin 4096, wt f b n m

/-- The result: each weight divided by the batch's total, then summed against row `c` of `f`. -/
def out (b : Fin 4) (c : Fin 64) (m : Fin 4096) : EReal :=
  ∑ n : Fin 4096, f (ix3 b c n) * Ideal.div (wt f b n m) (total f b)

/-- What row tile `k` adds to the numerator of entry `(c, pos mi p)`. -/
def tileNumer (b : Fin 4) (c : Fin 64) (mi : Fin 8) (p : Fin 512) (k : Fin 8) : EReal :=
  ∑ q : Fin 512, f (ix3 b c (pos k q)) * wt f b (pos k q) (pos mi p)

/-- The sum of the weights of the tile pair (row tile `k`, column tile `mi`). -/
def tileTotal (b : Fin 4) (mi : Fin 8) (k : Fin 8) : EReal :=
  ∑ q : Fin 512, ∑ p : Fin 512, wt f b (pos k q) (pos mi p)

/-- The running numerator after the first `k` row tiles. -/
def runNumer (b : Fin 4) (c : Fin 64) (mi : Fin 8) (p : Fin 512) : ℕ → EReal
  | 0 => 0
  | k + 1 => if h : k < 8 then runNumer b c mi p k + tileNumer f b c mi p ⟨k, h⟩ else runNumer b c mi p k

/-- The running total of column tile `mi` after the first `k` row tiles. -/
def runTotal (b : Fin 4) (mi : Fin 8) : ℕ → EReal
  | 0 => 0
  | k + 1 => if h : k < 8 then runTotal b mi k + tileTotal f b mi ⟨k, h⟩ else runTotal b mi k

/-- The tiled road's result at entry `(c, pos mi p)`: the finished numerator over the sum of the 8 column tiles' totals. -/
def outK (b : Fin 4) (c : Fin 64) (mi : Fin 8) (p : Fin 512) : EReal :=
  Ideal.div (runNumer f b c mi p 8) (∑ mj : Fin 8, runTotal f b mj 8)

end Cert.Attn

end
-- ==== Proof.LibStoreThenLoad.lean ====
/-
  A whole-buffer load after whole-buffer stores.

  When a buffer has been stored into several times and the LAST store covered the whole buffer, a load of the whole
  buffer reads that last store's value, whatever the earlier stores were.  (The library states this for a single store;
  a running value that is reset and then updated within one body is stored twice before it is read back.)
-/
import Idealize.ShloMosaic.Lib.Pipeline.Value

noncomputable section

namespace Cert.LibStoreThenLoad

open Idealize.ShloMosaic

/-- A load of a whole buffer after stores of which the last covered the whole buffer reads that last store's value. -/
theorem readCov_cons_whole {Val : EltTy → Type} [∀ e, Nonempty (Val e)] {sg : RefSig} {κ : Kind} {sp : Space} {S : Shape} {e : EltTy}
    (v : View sg κ sp S e) {off : Fin S.rank → Nat} (h : off = fun _ => 0) (inb : ∀ a, off a + S.size a ≤ S.size a)
    (w : S.Idx → Val e) (L : List (View.Piece Val S e)) :
    v.readCov ((⟨Rect.unit off S.size inb, w⟩ : View.Piece Val S e) :: L) (Rect.unit off S.size inb).toLoadRect = w := by
  subst h
  rw [View.readCov_eq_canon_ld _ _ _ (fun y => ⟨_, List.mem_cons_self, by
    show y ∈ (Rect.whole S).set; rw [Rect.set_whole]; exact Finset.mem_univ y⟩), View.canon_cons_unit_zero rfl,
    View.ld_unit_zero rfl]

end Cert.LibStoreThenLoad

end
-- ==== Proof.KIValue.lean ====
/-
  What the kernel body leaves in its two result blocks, read at an index on the extended reals.

  The body zeroes a running numerator [64, 512] and a running total [1, 1], walks the eight row tiles of the batch's
  slice — each trip loads row tile k (positions 512·k … 512·k + 511 of the slice), and stores the numerator and the
  total updated with that tile —, then copies the numerator into the first result block and splats the total over
  the second. Every store and every load of the two running values is of the whole buffer, so after each trip a
  buffer reads as the trip's update of what it read before, and by induction on the trips as the k-fold update of
  zero. On the extended reals the k-fold updates are two running sums, and those are the specification's tiled
  running numerator and total when the column tile and the slice are read off the flattened image.
-/
import proofs.«171277_j13898514170484_2_alg».proof.Proof.PayloadAt
import proofs.«171277_j13898514170484_2_alg».proof.Proof.PayloadSum
import proofs.«171277_j13898514170484_2_alg».proof.Proof.KIBody
import proofs.«171277_j13898514170484_2_alg».proof.Proof.AttnSpec
import proofs.«171277_j13898514170484_2_alg».proof.Proof.LibStoreThenLoad
import Idealize.ShloMosaic.Lib.Pipeline.Value
import Idealize.ShloMosaic.Lib.ValueIdx
import Idealize.ShloMosaic.Lib.ValueLayout
import Idealize.ShloMosaic.Lib.Tactic
import Idealize.ShloMosaic.PureOps.Ideal.Laws

set_option maxRecDepth 16384

noncomputable section

namespace Cert.KernelIdeal.Value2

open Cert.KernelIdeal Cert.KernelIdeal.Gen Cert.KernelIdeal.Hand
open Idealize.ShloMosaic Idealize.ShloMosaic.TcCoe Idealize.ShloMosaic.Tactic Idealize.ShloMosaic.ValueIdx
open Idealize.SL.Sem
open Cert.Attn (pos)
open scoped BigOperators

variable (c : Dev nD) (i : grid0.Coords)
    (arg2 : Memref sig .tc .vmem S1x64x512 .f32) (harg2 : arg2.IsWhole) (arg3 : Memref sig .tc .vmem S1x64x4096 .f32) (harg3 : arg3.IsWhole)
    (arg4 : Memref sig .tc .vmem S1x64x512 .f32) (harg4 : arg4.IsWhole) (arg5 : Memref sig .tc .vmem S1x1x128 .f32) (harg5 : arg5.IsWhole)
    (arg6 : Memref sig .tc .vmem S64x512 .f32) (harg6 : arg6.IsWhole) (arg7 : Memref sig .tc .vmem S1x1 .f32) (harg7 : arg7.IsWhole)

/-! ## Zero offsets, and the loop's trip count -/

theorem hz2 : (![0, 0] : Fin 2 → Nat) = fun _ => 0 := funext fun a => by fin_cases a <;> rfl
theorem hz3 : (![0, 0, 0] : Fin 3 → Nat) = fun _ => 0 := funext fun a => by fin_cases a <;> rfl

/-- The counted loop walks the eight row tiles. -/
theorem trips_eq : k0_t1_loop.trips = 8 := by decide

/-- Row tile `k` as a trip of the loop. -/
abbrev tk (k : Fin 8) : Fin k0_t1_loop.trips := ⟨k.val, lt_of_lt_of_eq k.isLt trips_eq.symm⟩

/-! ## One trip, for every float instance -/

section AnyInstance

variable {F : FTy → Type} [FloatOps F]

/-- What trip `k` loads of the slice held at `X3`: its row tile `k`. -/
abbrev tileAt (X3 : BufTy.Contents (Elt F) arg3.view.ty) (k : Fin k0_t1_loop.trips) : Vec F S1x64x512 .f32 :=
  View.readAt (Elt F) arg3.view (Rect.unit (s := S1x64x4096) (k0_off1 k) S1x64x512.size (k0_off1_inb k)).toLoadRect X3

/-- The stores of one trip: one store of the whole numerator and one of the whole total, each the trip's update of
    what the trip found there. -/
theorem tripL_eq (v8 : Vec F S1x64x512 .f32) (X3 : BufTy.Contents (Elt F) arg3.view.ty) (k : Fin k0_t1_loop.trips)
    (f6 : BufTy.Contents (Elt F) arg6.view.ty) (f7 : BufTy.Contents (Elt F) arg7.view.ty) :
    (tripL_k0_t1 (F := F) Variants.none c none i arg2 harg2 arg3 harg3 arg4 harg4 arg5 harg5 arg6 harg6 arg7 harg7 v8 X3 k f6 f7)
      = ([⟨Rect.unit ![0, 0] S64x512.size inb_S64x512_S64x512_0_0,
            k0_pay6 v8 (tileAt arg3 X3 k)
              (View.readAt (Elt F) arg6.view (Rect.unit ![0, 0] S64x512.size inb_S64x512_S64x512_0_0).toLoadRect f6)⟩],
         [⟨Rect.unit ![0, 0] S1x1.size inb_S1x1_S1x1_0_0,
            k0_pay5 v8 (tileAt arg3 X3 k)
              (View.readAt (Elt F) arg7.view (Rect.unit ![0, 0] S1x1.size inb_S1x1_S1x1_0_0).toLoadRect f7)⟩]) := by
  unfold tripL_k0_t1 trip_k0_t1
  rfl

/-- After one trip the numerator reads as the trip's update of what it read before. -/
theorem trip_read6 (v8 : Vec F S1x64x512 .f32) (X3 : BufTy.Contents (Elt F) arg3.view.ty) (k : Fin k0_t1_loop.trips)
    (f6 : BufTy.Contents (Elt F) arg6.view.ty) (f7 : BufTy.Contents (Elt F) arg7.view.ty) :
    arg6.view.read (Elt F) (arg6.view.writes (Elt F) f6 (tripL_k0_t1 (F := F) Variants.none c none i arg2 harg2 arg3 harg3 arg4 harg4 arg5 harg5 arg6 harg6 arg7 harg7 v8 X3 k f6 f7).1)
      = k0_pay6 v8 (tileAt arg3 X3 k) (arg6.view.read (Elt F) f6) := by
  rw [tripL_eq]
  dsimp only
  rw [View.read_writes_eq_canon _ _ _ (fun y => ⟨_, List.mem_singleton_self _, View.mem_set_unit_zero hz2 inb_S64x512_S64x512_0_0 y⟩),
    View.canon_unit_zero hz2]
  simp only [View.readAt_eq_ld, View.ld_unit_zero (S := S64x512) hz2]

/-- After one trip the total reads as the trip's update of what it read before. -/
theorem trip_read7 (v8 : Vec F S1x64x512 .f32) (X3 : BufTy.Contents (Elt F) arg3.view.ty) (k : Fin k0_t1_loop.trips)
    (f6 : BufTy.Contents (Elt F) arg6.view.ty) (f7 : BufTy.Contents (Elt F) arg7.view.ty) :
    arg7.view.read (Elt F) (arg7.view.writes (Elt F) f7 (tripL_k0_t1 (F := F) Variants.none c none i arg2 harg2 arg3 harg3 arg4 harg4 arg5 harg5 arg6 harg6 arg7 harg7 v8 X3 k f6 f7).2)
      = k0_pay5 v8 (tileAt arg3 X3 k) (arg7.view.read (Elt F) f7) := by
  rw [tripL_eq]
  dsimp only
  rw [View.read_writes_eq_canon _ _ _ (fun y => ⟨_, List.mem_singleton_self _, View.mem_set_unit_zero hz2 inb_S1x1_S1x1_0_0 y⟩),
    View.canon_unit_zero hz2]
  simp only [View.readAt_eq_ld, View.ld_unit_zero (S := S1x1) hz2]

/-- The numerator after the first `k` trips, from `a0`: trip `j` updates it with row tile `j`. -/
def acc6 (x0 : Vec F S1x64x512 .f32) (tile : Fin 8 → Vec F S1x64x512 .f32) (a0 : Vec F S64x512 .f32) : ℕ → Vec F S64x512 .f32
  | 0 => a0
  | k + 1 => if h : k < 8 then k0_pay6 x0 (tile ⟨k, h⟩) (acc6 x0 tile a0 k) else acc6 x0 tile a0 k

/-- The total after the first `k` trips, from `a0`. -/
def acc7 (x0 : Vec F S1x64x512 .f32) (tile : Fin 8 → Vec F S1x64x512 .f32) (a0 : Vec F S1x1 .f32) : ℕ → Vec F S1x1 .f32
  | 0 => a0
  | k + 1 => if h : k < 8 then k0_pay5 x0 (tile ⟨k, h⟩) (acc7 x0 tile a0 k) else acc7 x0 tile a0 k

/-- The two scratches after the first `k` trips read as the `k`-fold updates of what they read at loop entry. -/
theorem loop_read (v8 : Vec F S1x64x512 .f32) (X3 : BufTy.Contents (Elt F) arg3.view.ty)
    (G6 : BufTy.Contents (Elt F) arg6.view.ty) (G7 : BufTy.Contents (Elt F) arg7.view.ty) :
    ∀ k : ℕ, k ≤ 8 →
      arg6.view.read (Elt F) (arg6.view.writes (Elt F) G6 (pb_k0_t1 (F := F) Variants.none c none i arg2 harg2 arg3 harg3 arg4 harg4 arg5 harg5 arg6 harg6 arg7 harg7 v8 X3 G6 G7 k).1)
          = acc6 v8 (fun j => tileAt arg3 X3 (tk j)) (arg6.view.read (Elt F) G6) k
      ∧ arg7.view.read (Elt F) (arg7.view.writes (Elt F) G7 (pb_k0_t1 (F := F) Variants.none c none i arg2 harg2 arg3 harg3 arg4 harg4 arg5 harg5 arg6 harg6 arg7 harg7 v8 X3 G6 G7 k).2)
          = acc7 v8 (fun j => tileAt arg3 X3 (tk j)) (arg7.view.read (Elt F) G7) k
  | 0, _ => ⟨rfl, rfl⟩
  | k + 1, hk => by
    have h : k < 8 := hk
    obtain ⟨ih6, ih7⟩ := loop_read v8 X3 G6 G7 k (Nat.le_of_lt h)
    have hs := pb_k0_t1_succ (F := F) Variants.none c none i arg2 harg2 arg3 harg3 arg4 harg4 arg5 harg5 arg6 harg6 arg7 harg7 v8 X3 G6 G7 (tk ⟨k, h⟩)
    constructor
    · rw [show (pb_k0_t1 (F := F) Variants.none c none i arg2 harg2 arg3 harg3 arg4 harg4 arg5 harg5 arg6 harg6 arg7 harg7 v8 X3 G6 G7 (k + 1)) = _ from hs]
      dsimp only
      rw [View.writes_append, trip_read6, ih6]
      simp only [acc6, dif_pos h]
    · rw [show (pb_k0_t1 (F := F) Variants.none c none i arg2 harg2 arg3 harg3 arg4 harg4 arg5 harg5 arg6 harg6 arg7 harg7 v8 X3 G6 G7 (k + 1)) = _ from hs]
      dsimp only
      rw [View.writes_append, trip_read7, ih7]
      simp only [acc7, dif_pos h]

end AnyInstance

/-! ## The running sums on the extended reals -/

open Cert.KernelIdeal.PayloadAt Cert.KernelIdeal.PayloadSum

/-- The running numerator of entry `(ch, p)` after the first `k` row tiles of the slice `x1`, against the column tile
    `x0`: row tile `k` adds the sum over its positions `q` of the slice's entry `(ch, 512·k + q)` times the weight of
    the pair (position `512·k + q` of the slice, position `p` of the column tile). -/
def bodyNumer (x0 : Vec Ideal S1x64x512 .f32) (x1 : Vec Ideal S1x64x4096 .f32) (ch : Fin 64) (p : Fin 512) : ℕ → EReal
  | 0 => 0
  | k + 1 =>
    if h : k < 8 then
      bodyNumer x0 x1 ch p k + ∑ q : Fin 512, x1 (ix3 0 ch (pos ⟨k, h⟩ q))
        * Ideal.exp (∑ c' : Fin 64, x1 (ix3 0 c' (pos ⟨k, h⟩ q)) * x0 (ix3 0 c' p))
    else bodyNumer x0 x1 ch p k

/-- The running total after the first `k` row tiles: row tile `k` adds the sum of the 512 × 512 weights of the pairs
    (its positions, the column tile's positions). -/
def bodyTotal (x0 : Vec Ideal S1x64x512 .f32) (x1 : Vec Ideal S1x64x4096 .f32) : ℕ → EReal
  | 0 => 0
  | k + 1 =>
    if h : k < 8 then
      bodyTotal x0 x1 k + ∑ q : Fin 512, ∑ p : Fin 512,
        Ideal.exp (∑ c' : Fin 64, x1 (ix3 0 c' (pos ⟨k, h⟩ q)) * x0 (ix3 0 c' p))
    else bodyTotal x0 x1 k

/-- The numerator's `k`-fold update from zero, at entry `(ch, p)`, is the running numerator, when the tiles are the row
    tiles of the slice. -/
theorem acc6_apply (x0 : Vec Ideal S1x64x512 .f32) (x1 : Vec Ideal S1x64x4096 .f32)
    (tile : Fin 8 → Vec Ideal S1x64x512 .f32)
    (htile : ∀ (k : Fin 8) (c' : Fin 64) (q : Fin 512), tile k (ix3 0 c' q) = x1 (ix3 0 c' (pos k q)))
    (ch : Fin 64) (p : Fin 512) :
    ∀ k : ℕ, acc6 (F := Ideal) x0 tile (k0_pay1 (F := Ideal)) k (ix2 ch p) = bodyNumer x0 x1 ch p k
  | 0 => pay1_apply _
  | k + 1 => by
    by_cases h : k < 8
    · simp only [acc6, bodyNumer, dif_pos h]
      rw [pay6_apply, acc6_apply x0 x1 tile htile ch p k]
      refine congrArg (bodyNumer x0 x1 ch p k + ·) (Finset.sum_congr rfl fun q _ => ?_)
      rw [pay4_apply, htile]
      simp only [htile]
    · simp only [acc6, bodyNumer, dif_neg h]
      exact acc6_apply x0 x1 tile htile ch p k

/-- The total's `k`-fold update from zero is the running total. -/
theorem acc7_apply (x0 : Vec Ideal S1x64x512 .f32) (x1 : Vec Ideal S1x64x4096 .f32)
    (tile : Fin 8 → Vec Ideal S1x64x512 .f32)
    (htile : ∀ (k : Fin 8) (c' : Fin 64) (q : Fin 512), tile k (ix3 0 c' q) = x1 (ix3 0 c' (pos k q))) :
    ∀ k : ℕ, acc7 (F := Ideal) x0 tile (k0_pay2 (F := Ideal)) k (ix2 0 0) = bodyTotal x0 x1 k
  | 0 => pay2_apply _
  | k + 1 => by
    by_cases h : k < 8
    · simp only [acc7, bodyTotal, dif_pos h]
      rw [pay5_apply, acc7_apply x0 x1 tile htile k]
      refine congrArg (bodyTotal x0 x1 k + ·) (Finset.sum_congr rfl fun q _ => Finset.sum_congr rfl fun p _ => ?_)
      rw [pay4_apply]
      simp only [htile]
    · simp only [acc7, bodyTotal, dif_neg h]
      exact acc7_apply x0 x1 tile htile k

/-- Trip `k`'s load of the slice, at `(0, c', q)`, is the slice at `(0, c', 512·k + q)`. -/
theorem tileAt_apply (x1 : Vec Ideal S1x64x4096 .f32) (k : Fin 8) (c' : Fin 64) (q : Fin 512) :
    tileAt (F := Ideal) arg3 (harg3.unread x1) (tk k) (ix3 0 c' q) = x1 (ix3 0 c' (pos k q)) := by
  unfold tileAt
  rw [View.readAt_apply, harg3.read_unread]
  refine congrArg x1 (funext fun a => Fin.ext ?_)
  have hoff := k0_off1_eq (tk k)
  match a with
  | ⟨0, _⟩ => show k0_off1 (tk k) 0 + 1 * 0 = 0; rw [hoff]; rfl
  | ⟨1, _⟩ => show k0_off1 (tk k) 1 + 1 * c'.val = c'.val; rw [hoff]; show 0 + 1 * c'.val = c'.val; omega
  | ⟨2, _⟩ => show k0_off1 (tk k) 2 + 1 * q.val = 512 * k.val + q.val; rw [hoff]; show 512 * k.val + 1 * q.val = _; omega

/-! ## What the body leaves in the two result blocks -/

/-- The numerator's block: entry `(0, ch, p)` is the running numerator after all 8 row tiles. -/
theorem out2_apply (x0 : Vec Ideal S1x64x512 .f32) (x1 : Vec Ideal S1x64x4096 .f32) (ch : Fin 64) (p : Fin 512) :
    out0_2 (F := Ideal) c i arg2 harg2 arg3 harg3 arg4 harg4 arg5 harg5 arg6 harg6 arg7 harg7 x0 x1 (ix3 0 ch p) = bodyNumer x0 x1 ch p 8 := by
  unfold out0_2
  rw [View.read_writes_eq_canon _ _ _ (cover0_2 c i arg2 harg2 arg3 harg3 arg4 harg4 arg5 harg5 arg6 harg6 arg7 harg7 x0 x1)]
  unfold kernelRun0
  dsimp only
  sl_unfold_words
  rw [View.canon_unit_zero hz3, pay7_apply, View.writes_append]
  simp only [View.readAt_eq_ld, harg2.read_unread, View.ld_unit_zero (S := S1x64x512) hz3, View.ld_unit_zero (S := S64x512) hz2]
  refine (congrFun (loop_read c i arg2 harg2 arg3 harg3 arg4 harg4 arg5 harg5 arg6 harg6 arg7 harg7 x0 (harg3.unread x1) _ _ 8 le_rfl).1 (ix2 ch p)).trans ?_
  rw [View.read_writes_junk_eq_canon, View.canon_unit_zero hz2]
  exact acc6_apply x0 x1 _ (tileAt_apply arg3 harg3 x1) ch p 8

/-- The total's block: every entry is the running total after all 8 row tiles. -/
theorem out3_apply (x0 : Vec Ideal S1x64x512 .f32) (x1 : Vec Ideal S1x64x4096 .f32) (j : S1x1x128.Idx) :
    out0_3 (F := Ideal) c i arg2 harg2 arg3 harg3 arg4 harg4 arg5 harg5 arg6 harg6 arg7 harg7 x0 x1 j = bodyTotal x0 x1 8 := by
  unfold out0_3
  rw [View.read_writes_eq_canon _ _ _ (cover0_3 c i arg2 harg2 arg3 harg3 arg4 harg4 arg5 harg5 arg6 harg6 arg7 harg7 x0 x1)]
  unfold kernelRun0
  dsimp only
  sl_unfold_words
  rw [View.canon_unit_zero hz3, pay8_apply, View.writes_append]
  simp only [View.readAt_eq_ld, harg2.read_unread, View.ld_unit_zero (S := S1x64x512) hz3, View.ld_unit_zero (S := S1x1) hz2]
  refine (congrFun (loop_read c i arg2 harg2 arg3 harg3 arg4 harg4 arg5 harg5 arg6 harg6 arg7 harg7 x0 (harg3.unread x1) _ _ 8 le_rfl).2 (ix2 0 0)).trans ?_
  rw [View.read_writes_junk_eq_canon, View.canon_unit_zero hz2]
  exact acc7_apply x0 x1 _ (tileAt_apply arg3 harg3 x1) 8

/-! ## The running sums are the specification's -/

section Spec

variable (f : Cert.Attn.SF.Idx → EReal) (b : Fin 4) (mi : Fin 8)
  (x0 : Vec Ideal S1x64x512 .f32) (x1 : Vec Ideal S1x64x4096 .f32)
  (h0 : ∀ (c' : Fin 64) (p : Fin 512), x0 (ix3 0 c' p) = f (ix3 b c' (pos mi p)))
  (h1 : ∀ (c' : Fin 64) (n : Fin 4096), x1 (ix3 0 c' n) = f (ix3 b c' n))

include h0 h1 in
/-- When the column tile is tile `mi` of batch `b` of the image and the slice is batch `b` of it, the running
    numerator is the specification's. -/
theorem bodyNumer_eq_runNumer (ch : Fin 64) (p : Fin 512) :
    ∀ k : ℕ, bodyNumer x0 x1 ch p k = Cert.Attn.runNumer f b ch mi p k
  | 0 => rfl
  | k + 1 => by
    by_cases h : k < 8
    · simp only [bodyNumer, Cert.Attn.runNumer, dif_pos h, bodyNumer_eq_runNumer ch p k, Cert.Attn.tileNumer,
        Cert.Attn.wt, Cert.Attn.gram, h0, h1]
    · simp only [bodyNumer, Cert.Attn.runNumer, dif_neg h, bodyNumer_eq_runNumer ch p k]

include h0 h1 in
/-- … and the running total is the specification's. -/
theorem bodyTotal_eq_runTotal : ∀ k : ℕ, bodyTotal x0 x1 k = Cert.Attn.runTotal f b mi k
  | 0 => rfl
  | k + 1 => by
    by_cases h : k < 8
    · simp only [bodyTotal, Cert.Attn.runTotal, dif_pos h, bodyTotal_eq_runTotal k, Cert.Attn.tileTotal,
        Cert.Attn.wt, Cert.Attn.gram, h0, h1]
    · simp only [bodyTotal, Cert.Attn.runTotal, dif_neg h, bodyTotal_eq_runTotal k]

end Spec

end Cert.KernelIdeal.Value2

end
-- ==== Proof.KIArrays.lean ====
/-
  From blocks to the arrays: what the two result arrays hold after the region, entry by entry, in terms of what the
  body left at the grid point that covers the entry; and what an input window's block is, entry by entry, in terms of
  the flattened image as the region finds it.

  A grid point is a pair (batch b, column tile mi), numbered 8·b + mi. Window 0 and the numerator window 2 take the
  block [1, 64, 512] at block index (b, 0, mi) of a [4, 64, 4096] array: entry (0, ch, p) of the block is entry
  (b, ch, 512·mi + p) of the array. Window 1 takes the batch's whole slice, block index (b, 0, 0). The total window 3
  takes the block [1, 1, 128] at block index (b, 0, mi) of a [4, 1, 1024] array: lane l of the block is entry
  (b, 0, 128·mi + l). Distinct points have distinct block indices in the two result windows, so their blocks do not
  meet and each entry of a result array ends at what its one point wrote back.
-/
import proofs.«171277_j13898514170484_2_alg».proof.Proof.KIFrame
import proofs.«171277_j13898514170484_2_alg».proof.Proof.AttnSpec
import Idealize.ShloMosaic.Lib.Pipeline.Value
import Idealize.ShloMosaic.Lib.StableHlo.Run
import Idealize.ShloMosaic.Lib.ValueIdx

set_option maxRecDepth 16384

noncomputable section

namespace Cert.KernelIdeal.Arrays

open Cert.KernelIdeal Cert.KernelIdeal.Gen Cert.KernelIdeal.Hand
open Idealize.ShloMosaic Idealize.ShloMosaic.TcCoe Idealize.SL.Sem Idealize.ShloMosaic.ValueIdx
open Idealize.ShloMosaic.Pipeline (Dat)

variable {F : FTy → Type} [FloatOps F]
variable (m : (ℓ : Loc nD τ sig) → Buf (Elt F) ℓ)

/-- The grid point of batch b and column tile mi. -/
def pt (b : Fin 4) (mi : Fin 8) : Fin cfg0.N :=
  ⟨8 * b.val + mi.val, by have hb := b.isLt; have hm := mi.isLt; show 8 * b.val + mi.val < grid0.N; rw [N_0]; omega⟩

theorem pt_val (b : Fin 4) (mi : Fin 8) : (pt b mi).val = 8 * b.val + mi.val := rfl

/-! ## The image as the region finds it -/

/-- The launch's argument is untouched by the reshape before the region. -/
theorem V_main_arg0 (c : Dev nD) : V m c main_arg0 = m ((c : Thread nD τ).loc main_arg0) := by
  show StableHlo.after hostOps0 (fun b => m (c, b)) (Proc.devRef .tc main_arg0) = _
  after_results <;> rfl

/-- The flattened image is the launch's argument reshaped. -/
theorem V_main_v0 (c : Dev nD) :
    V m c main_v0 = shapeCast _ (m ((c : Thread nD τ).loc main_arg0)) shapeCasts_S4x64x64x64_S4x64x4096 := by
  show StableHlo.after hostOps0 (fun b => m (c, b)) (Proc.devRef .tc main_v0) = _
  after_results <;> rfl

/-! ## The block indices, decided over the grid -/

/-- At point t the block index of windows 0, 2 and 3 is (t / 8, 0, t % 8) and of window 1 is (t / 8, 0, 0). -/
theorem idx_facts : ∀ t : Fin cfg0.N,
    win0_0.index t (0 : Fin 3) = t.val / 8 ∧ win0_0.index t (1 : Fin 3) = 0 ∧ win0_0.index t (2 : Fin 3) = t.val % 8
    ∧ win0_1.index t (0 : Fin 3) = t.val / 8 ∧ win0_1.index t (1 : Fin 3) = 0 ∧ win0_1.index t (2 : Fin 3) = 0
    ∧ win0_2.index t (0 : Fin 3) = t.val / 8 ∧ win0_2.index t (1 : Fin 3) = 0 ∧ win0_2.index t (2 : Fin 3) = t.val % 8
    ∧ win0_3.index t (0 : Fin 3) = t.val / 8 ∧ win0_3.index t (1 : Fin 3) = 0 ∧ win0_3.index t (2 : Fin 3) = t.val % 8 :=
  (by decide +kernel : ∀ t : Fin grid0.N, _)

/-! ## An input window's block, entry by entry -/

/-- Window 0's block at point (b, mi): the column tile mi of batch b of the flattened image. -/
theorem iblk0_apply (c : Dev nD) (b : Fin 4) (mi : Fin 8) (c' : Fin 64) (p : Fin 512) :
    iblk m c 0 (pt b mi) (ix3 (0 : Fin 1) c' p) = V m c main_v0 (ix3 b c' (Cert.Attn.pos mi p)) := by
  obtain ⟨e0, e1, e2, -⟩ := idx_facts (pt b mi)
  have hb := b.isLt; have hm := mi.isLt
  show V m c main_v0 (((cfg0.win 0).blk (pt b mi)).view.emb (ix3 (0 : Fin 1) c' p)) = V m c main_v0 _
  refine congrArg (V m c main_v0) (funext fun a => Fin.ext ?_)
  match a with
  | ⟨0, _⟩ => show win0_0.index (pt b mi) (0 : Fin 3) * 1 + 1 * 0 = b.val; rw [e0, pt_val]; omega
  | ⟨1, _⟩ => show win0_0.index (pt b mi) (1 : Fin 3) * 64 + 1 * c'.val = c'.val; rw [e1]; omega
  | ⟨2, _⟩ => show win0_0.index (pt b mi) (2 : Fin 3) * 512 + 1 * p.val = 512 * mi.val + p.val; rw [e2, pt_val]; omega

/-- Window 1's block at point (b, mi): the whole slice of batch b. -/
theorem iblk1_apply (c : Dev nD) (b : Fin 4) (mi : Fin 8) (c' : Fin 64) (n : Fin 4096) :
    iblk m c 1 (pt b mi) (ix3 (0 : Fin 1) c' n) = V m c main_v0 (ix3 b c' n) := by
  obtain ⟨-, -, -, e0, e1, e2, -⟩ := idx_facts (pt b mi)
  have hb := b.isLt; have hm := mi.isLt
  show V m c main_v0 (((cfg0.win 1).blk (pt b mi)).view.emb (ix3 (0 : Fin 1) c' n)) = V m c main_v0 _
  refine congrArg (V m c main_v0) (funext fun a => Fin.ext ?_)
  match a with
  | ⟨0, _⟩ => show win0_1.index (pt b mi) (0 : Fin 3) * 1 + 1 * 0 = b.val; rw [e0, pt_val]; omega
  | ⟨1, _⟩ => show win0_1.index (pt b mi) (1 : Fin 3) * 64 + 1 * c'.val = c'.val; rw [e1]; omega
  | ⟨2, _⟩ => show win0_1.index (pt b mi) (2 : Fin 3) * 4096 + 1 * n.val = n.val; rw [e2]; omega

/-! ## The result windows' blocks do not meet -/

/-- Distinct grid points have distinct block indices in the numerator window, -/
theorem idx_inj2 : ∀ t t' : Fin cfg0.N, win0_2.index t = win0_2.index t' → t = t' :=
  (by decide +kernel : ∀ t t' : Fin grid0.N, win0_2.index t = win0_2.index t' → t = t')

/-- and in the total window. -/
theorem idx_inj3 : ∀ t t' : Fin cfg0.N, win0_3.index t = win0_3.index t' → t = t' :=
  (by decide +kernel : ∀ t t' : Fin grid0.N, win0_3.index t = win0_3.index t' → t = t')

/-- So two points' numerator blocks share no entry of the array, -/
theorem disjoint2 : ∀ t t' : Fin cfg0.N, (cfg0.win 2).flush t = true → (cfg0.win 2).flush t' = true → t ≠ t' →
    Disjoint ((cfg0.win 2).blk t).view.set ((cfg0.win 2).blk t').view.set :=
  fun t t' _ _ hne => (cfg0.win 2).disjoint_blk fun h => hne (idx_inj2 t t' h)

/-- nor two points' total blocks. -/
theorem disjoint3 : ∀ t t' : Fin cfg0.N, (cfg0.win 3).flush t = true → (cfg0.win 3).flush t' = true → t ≠ t' →
    Disjoint ((cfg0.win 3).blk t).view.set ((cfg0.win 3).blk t').view.set :=
  fun t t' _ _ hne => (cfg0.win 3).disjoint_blk fun h => hne (idx_inj3 t t' h)

/-! ## The result arrays after the region, entry by entry -/

/-- Entry (0, ch, p) of the numerator block of point (b, mi) sits at entry (b, ch, 512·mi + p) of the array. -/
theorem emb2 (b : Fin 4) (mi : Fin 8) (ch : Fin 64) (p : Fin 512) :
    ((cfg0.win 2).blk (pt b mi)).view.emb (ix3 (0 : Fin 1) ch p) = ix3 b ch (Cert.Attn.pos mi p) := by
  obtain ⟨-, -, -, -, -, -, e0, e1, e2, -⟩ := idx_facts (pt b mi)
  have hb := b.isLt; have hm := mi.isLt
  refine funext fun a => Fin.ext ?_
  match a with
  | ⟨0, _⟩ => show win0_2.index (pt b mi) (0 : Fin 3) * 1 + 1 * 0 = b.val; rw [e0, pt_val]; omega
  | ⟨1, _⟩ => show win0_2.index (pt b mi) (1 : Fin 3) * 64 + 1 * ch.val = ch.val; rw [e1]; omega
  | ⟨2, _⟩ => show win0_2.index (pt b mi) (2 : Fin 3) * 512 + 1 * p.val = 512 * mi.val + p.val; rw [e2, pt_val]; omega

/-- Lane l of the total block of point (b, mi) sits at entry (b, 0, 128·mi + l) of the array. -/
theorem emb3 (b : Fin 4) (mi : Fin 8) (l : Fin 128) :
    ((cfg0.win 3).blk (pt b mi)).view.emb (ix3 (0 : Fin 1) (0 : Fin 1) l)
      = ix3 b (0 : Fin 1) (⟨128 * mi.val + l.val, by have := mi.isLt; have := l.isLt; omega⟩ : Fin 1024) := by
  obtain ⟨-, -, -, -, -, -, -, -, -, e0, e1, e2⟩ := idx_facts (pt b mi)
  have hb := b.isLt; have hm := mi.isLt
  refine funext fun a => Fin.ext ?_
  match a with
  | ⟨0, _⟩ => show win0_3.index (pt b mi) (0 : Fin 3) * 1 + 1 * 0 = b.val; rw [e0, pt_val]; omega
  | ⟨1, _⟩ => show win0_3.index (pt b mi) (1 : Fin 3) * 1 + 1 * 0 = 0; rw [e1]
  | ⟨2, _⟩ => show win0_3.index (pt b mi) (2 : Fin 3) * 128 + 1 * l.val = 128 * mi.val + l.val; rw [e2, pt_val]; omega

/-- The numerator array after the region, at entry (b, ch, 512·mi + p): what the body left at point (b, mi) in entry
    (0, ch, p) of its block. -/
theorem arr2_apply (c : Dev nD) (b : Fin 4) (mi : Fin 8) (ch : Fin 64) (p : Fin 512) :
    (dats m 0 c).arrAt 2 cfg0.N (ix3 b ch (Cert.Attn.pos mi p))
      = (dats m 0 c).after 2 (pt b mi) (ix3 (0 : Fin 1) ch p) := by
  have h := (dats m 0 c).arrAt_emb_eq_flushed 2 disjoint2 (pt b mi) (flush0_2 _) (ix3 (0 : Fin 1) ch p)
  rw [emb2] at h
  exact h.trans rfl

/-- The total array after the region, at entry (b, 0, 128·mi + l): what the body left at point (b, mi) in lane l of
    its block. -/
theorem arr3_apply (c : Dev nD) (b : Fin 4) (mi : Fin 8) (l : Fin 128) :
    (dats m 0 c).arrAt 3 cfg0.N (ix3 b (0 : Fin 1) (⟨128 * mi.val + l.val, by have := mi.isLt; have := l.isLt; omega⟩ : Fin 1024))
      = (dats m 0 c).after 3 (pt b mi) (ix3 (0 : Fin 1) (0 : Fin 1) l) := by
  have h := (dats m 0 c).arrAt_emb_eq_flushed 3 disjoint3 (pt b mi) (flush0_3 _) (ix3 (0 : Fin 1) (0 : Fin 1) l)
  rw [emb3] at h
  exact h.trans rfl

end Cert.KernelIdeal.Arrays

end
-- ==== Proof.TailAt.lean ====
/-
  The host operations after the kernel launch, as one function of the two arrays the launch leaves, read at an index
  on the extended reals.

  The launch leaves the numerators N : [4, 64, 4096] and the per-tile totals P : [4, 1, 1024] (each total splatted over
  128 lanes). The host reshapes P to [4, 8, 128], keeps lane 0 of each tile, sums the 8 tiles of each batch, and divides
  every numerator of the batch by that sum. At entry (b, c, m) the result is N (b, c, m) over the sum over the 8 tiles
  mj of P (b, 0, 128 · mj).
-/
import proofs.«171277_j13898514170484_2_alg».proof.Proof.Gen.KernelIdeal.Launch
import Idealize.ShloMosaic.Lib.ValueIdx
import Idealize.ShloMosaic.Lib.StableHlo.Run
import Idealize.ShloMosaic.Lib.ValueLayout
import Idealize.ShloMosaic.Lib.Pipeline.Value
import Idealize.ShloMosaic.PureOps.Ideal.Laws

set_option synthInstance.maxSize 4096

noncomputable section

open scoped BigOperators

namespace Cert.KernelIdeal.TailAt

open Idealize.ShloMosaic Idealize.SL.Sem Idealize.ShloMosaic.ValueIdx
open Cert.KernelIdeal.Gen

/-- The host tail from the two arrays of the launch to the quotient, one operation after another: reshape of the
    totals to [4, 8, 128], slice to [4, 8, 1], reshape to [4, 8], sum along the tile axis from the zero constant,
    reshape to [4, 1, 1], broadcast to [4, 64, 4096], and the quotient of the numerators by it. Generic in the float
    instance. -/
def tail {F : FTy → Type} [FloatOps F] (N : (⟨S4x64x4096, .f32⟩ : BufTy).Contents (Elt F))
    (P : (⟨S4x1x1024, .f32⟩ : BufTy).Contents (Elt F)) : (⟨S4x64x4096, .f32⟩ : BufTy).Contents (Elt F) :=
  Host.divf (F := F) N
    (broadcastInDim S4x64x4096 ![0, 1, 2] bcast_S4x1x1_S4x64x4096_0_1_2
      (shapeCast S4x1x1
        (Host.reduceAdd (F := F)
          (shapeCast S4x8
            (extractStridedSlice S4x8x1 ![0, 0, 0] (shapeCast S4x8x128 P shapeCasts_S4x1x1024_S4x8x128)
              slices_S4x8x128_S4x8x1_0_0_0)
            shapeCasts_S4x8x1_S4x8)
          (constant (F := F) S_ .f32 0x00000000#32) reducesTo_S4x8_S4_d1 h_S_)
        shapeCasts_S4_S4x1x1))

/-- The sum along the tile axis has a witness in the form that names the inserted coordinate. -/
theorem reduces_S4x8_S4 : S4x8.Reduces [1] S4 := by decide

/-- Lane 0 of tile mj of batch b, read through the reshape and the slice: entry (b, 0, 128 · mj) of the totals. -/
theorem lane0_apply {α : Type} (P : S4x1x1024.Idx → α) (b : Fin 4) (mj : Fin 8) :
    shapeCast S4x8
        (extractStridedSlice S4x8x1 ![0, 0, 0] (shapeCast S4x8x128 P shapeCasts_S4x1x1024_S4x8x128)
          slices_S4x8x128_S4x8x1_0_0_0)
        shapeCasts_S4x8x1_S4x8 (ix2 b mj)
      = P (ix3 b 0 ⟨128 * mj.val, by omega⟩) := by
  refine (shapeCast_apply _ shapeCasts_S4x8x1_S4x8 (ix2 b mj) (ix3 b mj (0 : Fin 1)) ?_).trans ?_
  · rw [Shape.rowMajor_val_three, Shape.rowMajor_val_two]
    show (b.val * 8 + mj.val) * 1 + 0 = b.val * 8 + mj.val
    omega
  refine (extractStridedSlice_apply _ _ slices_S4x8x128_S4x8x1_0_0_0 (ix3 b mj (0 : Fin 1)) (ix3 b mj (0 : Fin 128))
    (fun a => match a with
      | ⟨0, _⟩ => by show b.val = 0 + b.val; omega
      | ⟨1, _⟩ => by show mj.val = 0 + mj.val; omega
      | ⟨2, _⟩ => by show 0 = 0 + 0; omega)).trans ?_
  refine shapeCast_apply P shapeCasts_S4x1x1024_S4x8x128 (ix3 b mj (0 : Fin 128)) (ix3 b (0 : Fin 1) ⟨128 * mj.val, by omega⟩) ?_
  rw [Shape.rowMajor_val_three, Shape.rowMajor_val_three]
  show (b.val * 1 + 0) * 1024 + 128 * mj.val = (b.val * 8 + mj.val) * 128 + 0
  omega

/-- The host tail at entry (b, c, m): the numerator there over the sum of the batch's 8 tile totals. -/
theorem tail_apply (N : (⟨S4x64x4096, .f32⟩ : BufTy).Contents (Elt Ideal))
    (P : (⟨S4x1x1024, .f32⟩ : BufTy).Contents (Elt Ideal)) (b : Fin 4) (c : Fin 64) (m : Fin 4096) :
    tail (F := Ideal) N P (ix3 b c m)
      = Ideal.div (N (ix3 b c m)) (∑ mj : Fin 8, P (ix3 b 0 ⟨128 * mj.val, by omega⟩)) := by
  unfold tail
  show Ideal.div (N (ix3 b c m)) _ = _
  refine congrArg (Ideal.div (N (ix3 b c m))) ?_
  refine (broadcastInDim_apply _ bcast_S4x1x1_S4x64x4096_0_1_2 _ (ix3 b c m) (ix3 b (0 : Fin 1) (0 : Fin 1))
    (fun a => match a with
      | ⟨0, _⟩ => by show b.val = if (4 : Nat) = 1 then 0 else b.val; rw [if_neg (by decide)]
      | ⟨1, _⟩ => by show 0 = if (1 : Nat) = 1 then 0 else c.val; rw [if_pos rfl]
      | ⟨2, _⟩ => by show 0 = if (1 : Nat) = 1 then 0 else m.val; rw [if_pos rfl])).trans ?_
  refine (shapeCast_apply _ shapeCasts_S4_S4x1x1 (ix3 b (0 : Fin 1) (0 : Fin 1)) (ix1 b) ?_).trans ?_
  · rw [Shape.rowMajor_val_one, Shape.rowMajor_val_three]
    show b.val = (b.val * 1 + 0) * 1 + 0
    omega
  unfold Host.reduceAdd
  refine (Ideal.hostReduceAdd_single reducesTo_S4x8_S4_d1 reduces_S4x8_S4 _ _ (ix1 b)).trans ?_
  refine Eq.trans (congrArg (· + _) Ideal.ofBits_zero_f32) ?_
  rw [zero_add]
  refine Finset.sum_congr rfl fun mj _ => ?_
  exact lane0_apply P b mj

section After
open Idealize.ShloMosaic.StableHlo Idealize.ShloMosaic.TcCoe

/-- After the nine host operations, from any contents V, the quotient's buffer holds the tail of what V holds in the
    launch's two result buffers. -/
theorem tail_after {F : FTy → Type} [FloatOps F] (V : Valuation τ sig (Elt F)) :
    after (hostOps1 (F := F)) V (Proc.devRef .tc main_v8)
      = tail (F := F) (V (Proc.devRef .tc main_v1_0)) (V (Proc.devRef .tc main_v1_1)) := by
  after_results <;> rfl

/-- And the result buffer holds that, reshaped to [4, 64, 64, 64]. -/
theorem tail_after_result {F : FTy → Type} [FloatOps F] (V : Valuation τ sig (Elt F)) :
    after (hostOps1 (F := F)) V (Proc.devRef .tc main_v9)
      = shapeCast _ (tail (F := F) (V (Proc.devRef .tc main_v1_0)) (V (Proc.devRef .tc main_v1_1)))
          shapeCasts_S4x64x4096_S4x64x64x64 := by
  after_results <;> rfl

end After

end Cert.KernelIdeal.TailAt

end
-- ==== Proof.LibScaledTiles.lean ====
/-
  Two facts about finite sums on the extended reals, for a contraction axis cut into equal tiles.

  * A sum over an axis of n·K positions is the sum over the n tiles of the sums inside each tile, position
    K·s + q of the axis being position q of tile s.
  * For real numbers a, b and a real scale σ, read as extended reals, multiplying the total of the tiles'
    sums of products a·b by σ gives the sum of the products a·(b·σ): on the reals this is distributivity, and a
    finite sum or product of reals read as extended reals is the extended real of the real sum or product.
    (On the extended reals alone the law fails: with an infinite total and σ = 0 the two sides differ.)
-/
import Idealize.ShloMosaic.PureOps.Ideal.Laws

noncomputable section

open scoped BigOperators

namespace Cert.Lib.ScaledTiles

/-- A finite sum of reals, read as an extended real, is the sum of the terms read as extended reals. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- Position q of tile s, on an axis of n·K positions. -/
def tilePos {n K : Nat} (s : Fin n) (q : Fin K) : Fin (n * K) :=
  ⟨K * s.val + q.val, by
    have hs := s.isLt; have hq := q.isLt
    calc K * s.val + q.val < K * s.val + K := by omega
      _ = K * (s.val + 1) := by ring
      _ ≤ K * n := Nat.mul_le_mul_left K hs
      _ = n * K := Nat.mul_comm K n⟩

theorem tilePos_val {n K : Nat} (s : Fin n) (q : Fin K) : (tilePos s q).val = K * s.val + q.val := rfl

/-- A sum over n·K positions, tile by tile. -/
theorem sum_tiles {β : Type*} [AddCommMonoid β] {n K : Nat} (f : Fin (n * K) → β) :
    ∑ k : Fin (n * K), f k = ∑ s : Fin n, ∑ q : Fin K, f (tilePos s q) := by
  rw [← Equiv.sum_comp finProdFinEquiv f, Fintype.sum_prod_type]
  refine Finset.sum_congr rfl fun s _ => Finset.sum_congr rfl fun q _ => ?_
  congr 1
  apply Fin.ext
  show q.val + K * s.val = K * s.val + q.val
  omega

/-- The total over tiles of the sums of products a·b, started from zero and then multiplied by σ, is the sum of the
    products a·(b·σ), for real a, b, σ read as extended reals. -/
theorem scaled_total_eq {κ ι : Type*} [Fintype κ] [Fintype ι] (a b : κ → ι → ℝ) (σ : ℝ) :
    (0 + ∑ s : κ, ∑ q : ι, ((a s q : ℝ) : EReal) * ((b s q : ℝ) : EReal)) * (σ : EReal)
      = ∑ s : κ, ∑ q : ι, ((a s q : ℝ) : EReal) * (((b s q : ℝ) : EReal) * (σ : EReal)) := by
  simp only [← EReal.coe_mul, ← coe_sum, zero_add]
  congr 1
  rw [Finset.sum_mul]
  refine Finset.sum_congr rfl fun s _ => ?_
  rw [Finset.sum_mul]
  refine Finset.sum_congr rfl fun q _ => ?_
  ring

end Cert.Lib.ScaledTiles

end
-- ==== Proof.AttnAlgebra.lean ====
/-
  The tiled form of the attention result equals the reference's form when every entry of the image is a real number.

  Two steps. First, on any additive commutative monoid, a sum over the 4096 positions is the sum over the 8 tiles of
  the sums inside each tile, so the finished running numerator is the plain sum over every row position and the 8
  column tiles' running totals add up to the batch's total. Second, with real entries every inner product is a real,
  every weight is the exponential of a real, hence a positive real, and the batch's total is a positive real; division
  by it is multiplication by a real, which moves across a finite sum of reals.
-/
import proofs.«171277_j13898514170484_2_alg».proof.Proof.AttnSpec
import proofs.«171277_j13898514170484_2_alg».proof.Proof.LibScaledTiles

noncomputable section

namespace Cert.Attn

open Idealize.ShloMosaic Idealize.ShloMosaic.ValueIdx
open scoped BigOperators
open Cert.Lib.ScaledTiles (coe_sum sum_tiles)

/-- A sum over the long axis, tile by tile: position `512·k + q` is position `q` of tile `k`. -/
theorem sum_pos {β : Type*} [AddCommMonoid β] (F : Fin 4096 → β) :
    ∑ n : Fin 4096, F n = ∑ k : Fin 8, ∑ q : Fin 512, F (pos k q) :=
  sum_tiles (n := 8) (K := 512) F

section Tiles

variable (f : SF.Idx → EReal)

/-- After all 8 row tiles the running numerator is the sum of the 8 tiles' contributions. -/
theorem runNumer_eight (b : Fin 4) (c : Fin 64) (mi : Fin 8) (p : Fin 512) :
    runNumer f b c mi p 8 = ∑ k : Fin 8, tileNumer f b c mi p k := by
  simp [runNumer, Fin.sum_univ_eight]

/-- After all 8 row tiles the running total is the sum of the 8 tile pairs' totals. -/
theorem runTotal_eight (b : Fin 4) (mi : Fin 8) :
    runTotal f b mi 8 = ∑ k : Fin 8, tileTotal f b mi k := by
  simp [runTotal, Fin.sum_univ_eight]

/-- The finished numerator is the sum over every row position. -/
theorem runNumer_eight_eq_sum (b : Fin 4) (c : Fin 64) (mi : Fin 8) (p : Fin 512) :
    runNumer f b c mi p 8 = ∑ n : Fin 4096, f (ix3 b c n) * wt f b n (pos mi p) := by
  rw [runNumer_eight, sum_pos]
  rfl

/-- The 8 column tiles' finished totals add up to the batch's total. -/
theorem sum_runTotal_eq_total (b : Fin 4) : ∑ mj : Fin 8, runTotal f b mj 8 = total f b := by
  have h1 : total f b = ∑ k : Fin 8, ∑ q : Fin 512, ∑ mj : Fin 8, ∑ p : Fin 512, wt f b (pos k q) (pos mj p) := by
    rw [total, sum_pos]
    exact Finset.sum_congr rfl fun k _ => Finset.sum_congr rfl fun q _ => sum_pos _
  rw [h1]
  simp only [runTotal_eight, tileTotal]
  rw [Finset.sum_comm]
  exact Finset.sum_congr rfl fun k _ => Finset.sum_comm

end Tiles

section Real

variable (g : SF.Idx → ℝ)

/-- The inner product of two columns of a real image. -/
def gramR (b : Fin 4) (n m : Fin 4096) : ℝ := ∑ c : Fin 64, g (ix3 b c n) * g (ix3 b c m)

/-- The batch's total of a real image: a sum of exponentials. -/
def totalR (b : Fin 4) : ℝ := ∑ n : Fin 4096, ∑ m : Fin 4096, Real.exp (gramR g b n m)

theorem gram_coe (b : Fin 4) (n m : Fin 4096) :
    gram (fun i => (g i : EReal)) b n m = (gramR g b n m : EReal) := by
  simp only [gram, gramR, coe_sum, EReal.coe_mul]

theorem wt_coe (b : Fin 4) (n m : Fin 4096) :
    wt (fun i => (g i : EReal)) b n m = (Real.exp (gramR g b n m) : EReal) := by
  rw [wt, gram_coe, Ideal.exp_coe]

theorem total_coe (b : Fin 4) : total (fun i => (g i : EReal)) b = (totalR g b : EReal) := by
  simp only [total, totalR, wt_coe, coe_sum]

/-- A sum of 4096 × 4096 exponentials is positive. -/
theorem totalR_pos (b : Fin 4) : 0 < totalR g b :=
  Finset.sum_pos (fun _ _ => Finset.sum_pos (fun _ _ => Real.exp_pos _) Finset.univ_nonempty) Finset.univ_nonempty

end Real

/-- With real entries, dividing the finished numerator by the batch's total is dividing each weight by it first. -/
theorem outK_eq_out (f : SF.Idx → EReal) (hf : ∀ i, ∃ r : ℝ, f i = (r : EReal)) (b : Fin 4) (c : Fin 64) (mi : Fin 8)
    (p : Fin 512) : outK f b c mi p = out f b c (pos mi p) := by
  choose g hg using hf
  obtain rfl : f = fun i => (g i : EReal) := funext hg
  have hT : totalR g b ≠ 0 := (totalR_pos g b).ne'
  rw [outK, sum_runTotal_eq_total, runNumer_eight_eq_sum, out, total_coe, Ideal.div_coe hT]
  simp only [wt_coe, Ideal.div_coe hT, ← EReal.coe_mul, ← coe_sum]
  congr 1
  rw [Finset.sum_mul]
  exact Finset.sum_congr rfl fun n _ => by ring

end Cert.Attn

end
-- ==== Proof.FiniteInput.lean ====
/-
  From the precondition to real entries. The precondition is the conjunction, over every entry `x` of the input, of
  `|x| < +∞`, started from `true`; when it holds every entry satisfies `max x (-x) < ⊤` on the extended reals, which
  excludes both infinities (`max ⊥ ⊤ = ⊤` and `max ⊤ ⊥ = ⊤`), so every entry is a real number. The flattened image
  `[4, 64, 4096]` has the same entries under another shape, so its entries are real too.
-/
import proofs.«171277_j13898514170484_2_alg».proof.Proof.Gen.Pre_finite_inputs
import proofs.«171277_j13898514170484_2_alg».proof.Proof.Gen.ReferenceIdeal.Read
import Idealize.ShloMosaic.Lib.ReduceAll
import Idealize.ShloMosaic.PureOps.Ideal.Laws
import Idealize.ShloMosaic.Lib.ValueIdx

noncomputable section

namespace Cert.AttnRef

open Idealize.ShloMosaic Idealize.SL.Sem

/-- The rank-0 shape has one index. -/
instance : Subsingleton Cert.Pre_finite_inputs.S_.Idx := ⟨fun a b => funext fun d => d.elim0⟩

/-- The word `0x7F800000` denotes `+∞`. -/
theorem ofBits_inf_f32 : Ideal.ofBits .f32 0x7F800000#32 = ⊤ := by simp [Ideal.ofBits, Ideal.ieee]

/-- An extended real whose absolute value `max x (-x)` is below `⊤` is a real number. -/
theorem real_of_abs_lt_top (x : EReal) (h : max x (-x) < ⊤) : ∃ r : ℝ, x = (r : EReal) := by
  induction x using EReal.rec with
  | bot => simp at h
  | top => simp at h
  | coe r => exact ⟨r, rfl⟩

/-- Under the precondition every entry of the input is a real number. -/
theorem finite_of_pre (x : (⟨Cert.ReferenceIdeal.S4x64x64x64, .f32⟩ : BufTy).Contents (Elt Ideal))
    (h : Cert.Pre_finite_inputs.fn (F := Ideal) x = fun _ => 1#1) : ∀ i, ∃ r : ℝ, x i = (r : EReal) := by
  intro i
  have h0 := congrFun h ValueIdx.ix0
  dsimp only [Cert.Pre_finite_inputs.fn] at h0
  have h1 := Host.reduce_andi_all _ _ _ _ _ h0 i
  change Ideal.cmp .olt (max (x i) (-(x i))) (Ideal.ofBits .f32 0x7F800000#32) = 1#1 at h1
  rw [ofBits_inf_f32] at h1
  refine real_of_abs_lt_top (x i) ?_
  by_contra hn
  simp [Ideal.cmp, hn] at h1

/-- Under the precondition every entry of the flattened image is a real number. -/
theorem finite_flat_of_pre (x : (⟨Cert.ReferenceIdeal.S4x64x64x64, .f32⟩ : BufTy).Contents (Elt Ideal))
    (h : Cert.Pre_finite_inputs.fn (F := Ideal) x = fun _ => 1#1) :
    ∀ i, ∃ r : ℝ, Cert.ReferenceIdeal.Read.val_main_v0 (F := Ideal) x i = (r : EReal) := by
  intro i
  rw [Cert.ReferenceIdeal.Read.val_main_v0_apply]
  exact finite_of_pre x h _

end Cert.AttnRef

end
-- ==== Proof.RefValue.lean ====
/-
  The reference, read at an index, is the specification's `out` of the flattened image.

  Stage by stage: the first `dot_general` at `(b, n, m)` is the inner product of columns `n` and `m` of batch `b`
  (`gram`); its exponential is the weight `wt`; the sum over the two long axes, from the zero word, at `b` is the
  batch's `total` (the indices that reduce to `b` are exactly the `(b, n, m)`, so the filtered sum is the double sum
  over `n` and `m`); the two broadcasts read that total back at every `(b, n, m)`; the quotient is `wt / total`; and
  the last `dot_general` at `(b, c, m)` sums row `c` of the image against column `m` of the quotients: `out`.
-/
import proofs.«171277_j13898514170484_2_alg».proof.Proof.Gen.ReferenceIdeal.Read
import proofs.«171277_j13898514170484_2_alg».proof.Proof.AttnSpec

noncomputable section

namespace Cert.AttnRef

open Cert.ReferenceIdeal Cert.ReferenceIdeal.Gen Cert.ReferenceIdeal.Read
open Idealize.ShloMosaic Idealize.ShloMosaic.ValueIdx Idealize.SL.Sem
open scoped BigOperators

/-- An index of the weights' array reduces to batch `j` exactly when its first coordinate is `j`'s. -/
theorem drop_eq_iff (i : S4x4096x4096.Idx) (j : S4.Idx) :
    reducesTo_S4x4096x4096_S4_d1_2.drop i = j ↔ (i 0).val = (j 0).val := by
  constructor
  · intro h
    rw [← h]
    exact (reducesTo_S4x4096x4096_S4_d1_2.drop_apply_val_of_eq i 0 0).symm
  · intro h
    funext a
    match a with
    | ⟨0, _⟩ => exact Fin.ext ((reducesTo_S4x4096x4096_S4_d1_2.drop_apply_val_of_eq i 0 0).trans h)

/-- The sum over the indices that reduce to batch `b` is the double sum over the two long axes at `b`. -/
theorem sum_filter_drop {M : Type*} [AddCommMonoid M] (g : S4x4096x4096.Idx → M) (b : Fin 4)
    [DecidablePred fun i : S4x4096x4096.Idx => reducesTo_S4x4096x4096_S4_d1_2.drop i = ix1 b] :
    ∑ i ∈ Finset.univ.filter (fun i : S4x4096x4096.Idx => reducesTo_S4x4096x4096_S4_d1_2.drop i = ix1 b), g i
      = ∑ n : Fin 4096, ∑ m : Fin 4096, g (ix3 b n m) := by
  rw [← Fintype.sum_prod_type' (f := fun (n m : Fin 4096) => g (ix3 b n m))]
  symm
  refine Finset.sum_nbij' (fun p : Fin 4096 × Fin 4096 => ix3 b p.1 p.2)
    (fun i => ((i 1 : Fin 4096), (i 2 : Fin 4096))) ?_ ?_ ?_ ?_ ?_
  · intro p _
    rw [Finset.mem_filter]
    exact ⟨Finset.mem_univ _, (drop_eq_iff _ _).2 rfl⟩
  · intro i _
    simp
  · intro p _
    rfl
  · intro i hi
    have h0 : (i 0).val = b.val := (drop_eq_iff _ _).1 (Finset.mem_filter.1 hi).2
    funext a
    match a with
    | ⟨0, _⟩ => exact Fin.ext h0.symm
    | ⟨1, _⟩ => rfl
    | ⟨2, _⟩ => rfl
  · intro p _
    rfl

variable (x0 : (⟨S4x64x64x64, .f32⟩ : BufTy).Contents (Elt Ideal))

/-- The exponential of the first `dot_general` at `(b, n, m)` is the weight of the pair `(n, m)`. -/
theorem ref_v2_apply (b : Fin 4) (n m : Fin 4096) :
    val_main_v2 (F := Ideal) x0 (ix3 b n m) = Cert.Attn.wt (val_main_v0 (F := Ideal) x0) b n m := by
  have el : ∀ k : Fin 64, lidx_main_v1 (ix3 b n m) k = ix3 b k n := fun k => funext fun a => Fin.ext (by
    match a with | ⟨0, _⟩ => rfl | ⟨1, _⟩ => rfl | ⟨2, _⟩ => rfl)
  have er : ∀ k : Fin 64, ridx_main_v1 (ix3 b n m) k = ix3 b k m := fun k => funext fun a => Fin.ext (by
    match a with | ⟨0, _⟩ => rfl | ⟨1, _⟩ => rfl | ⟨2, _⟩ => rfl)
  rw [val_main_v2_apply, val_main_v1_apply]
  simp only [el, er]
  rfl

/-- The sum over the two long axes at batch `b` is the batch's total. -/
theorem ref_v3_apply (b : Fin 4) :
    val_main_v3 (F := Ideal) x0 (ix1 b) = Cert.Attn.total (val_main_v0 (F := Ideal) x0) b := by
  show Ideal.hostReduceAdd reducesTo_S4x4096x4096_S4_d1_2 (val_main_v2 (F := Ideal) x0) (Ideal.ofBits .f32 0x00000000#32) (ix1 b) = _
  unfold Ideal.hostReduceAdd
  rw [Ideal.ofBits_zero_f32, zero_add, sum_filter_drop]
  simp only [ref_v2_apply]
  rfl

/-- The array just before the last reshape, at `(b, c, m)`, is the specification's result. -/
theorem ref_v7_apply (b : Fin 4) (c : Fin 64) (m : Fin 4096) :
    val_main_v7 (F := Ideal) x0 (ix3 b c m) = Cert.Attn.out (val_main_v0 (F := Ideal) x0) b c m := by
  have el : ∀ k : Fin 4096, lidx_main_v7 (ix3 b c m) k = ix3 b c k := fun k => funext fun a => Fin.ext (by
    match a with | ⟨0, _⟩ => rfl | ⟨1, _⟩ => rfl | ⟨2, _⟩ => rfl)
  have er : ∀ k : Fin 4096, ridx_main_v7 (ix3 b c m) k = ix3 b k m := fun k => funext fun a => Fin.ext (by
    match a with | ⟨0, _⟩ => rfl | ⟨1, _⟩ => rfl | ⟨2, _⟩ => rfl)
  have e45 : ∀ k : Fin 4096, idx_main_v4 (idx_main_v5 (ix3 b k m)) = ix1 b := fun k => funext fun a => Fin.ext (by
    match a with | ⟨0, _⟩ => rfl)
  rw [val_main_v7_apply]
  simp only [el, er, val_main_v6_apply, val_main_v5_apply, val_main_v4_apply, e45, ref_v3_apply, ref_v2_apply]
  rfl

/-- Position `(h, w)` of the 64 × 64 image on the flattened long axis. -/
def flatPos (h w : Fin 64) : Fin 4096 := ⟨64 * h.val + w.val, by have := h.isLt; have := w.isLt; omega⟩

/-- The flattened position `64·h + w` is position `64·(h mod 8) + w` of tile `h / 8`. -/
theorem flatPos_eq_pos (h w : Fin 64) :
    flatPos h w = Cert.Attn.pos ⟨h.val / 8, by have := h.isLt; omega⟩
      ⟨64 * (h.val % 8) + w.val, by have := h.isLt; have := w.isLt; omega⟩ :=
  Fin.ext (by
    show 64 * h.val + w.val = 512 * (h.val / 8) + (64 * (h.val % 8) + w.val)
    omega)

/-- The last reshape reads entry `(b, c, h, w)` at `(b, c, 64·h + w)`. -/
theorem idx_main_v8_ix4 (b : Fin 4) (c h w : Fin 64) : idx_main_v8 (ix4 b c h w) = ix3 b c (flatPos h w) :=
  funext fun a => Fin.ext (by
    have hb := b.isLt; have hc := c.isLt; have hh := h.isLt; have hw := w.isLt
    match a with
    | ⟨0, _⟩ => show (((b.val * 64 + c.val) * 64 + h.val) * 64 + w.val) / 262144 = b.val; omega
    | ⟨1, _⟩ => show (((b.val * 64 + c.val) * 64 + h.val) * 64 + w.val) / 4096 % 64 = c.val; omega
    | ⟨2, _⟩ => show (((b.val * 64 + c.val) * 64 + h.val) * 64 + w.val) % 4096 = 64 * h.val + w.val; omega)

/-- The reference's result at `(b, c, h, w)` is the specification's result at `(b, c, 64·h + w)`. -/
theorem ref_v8_apply (b : Fin 4) (c h w : Fin 64) :
    val_main_v8 (F := Ideal) x0 (ix4 b c h w) = Cert.Attn.out (val_main_v0 (F := Ideal) x0) b c (flatPos h w) := by
  rw [val_main_v8_apply, idx_main_v8_ix4, ref_v7_apply]

end Cert.AttnRef

end
-- ==== Proof.KIJoin.lean ====
/-
  The join: what the kernel's host tail leaves, computed from the two arrays the region leaves, is the reference's
  result before its last reshape — and one reshape further, the reference's result.

  The region leaves the finished numerators in one array and, for every batch and column tile, the finished total in
  lane 0 of the tile's 128 lanes of the other. The host tail divides each numerator by the sum of its batch's 8 totals:
  the tiled form of the attention result. With every entry of the image a real number — the precondition — the tiled
  form is the reference's form, and the reference read at an index is the specification's result of the flattened image.
-/
import proofs.«171277_j13898514170484_2_alg».proof.Proof.KIArrays
import proofs.«171277_j13898514170484_2_alg».proof.Proof.TailAt
import proofs.«171277_j13898514170484_2_alg».proof.Proof.AttnAlgebra
import proofs.«171277_j13898514170484_2_alg».proof.Proof.FiniteInput
import proofs.«171277_j13898514170484_2_alg».proof.Proof.RefValue

set_option maxRecDepth 16384

noncomputable section

open scoped BigOperators

namespace Cert.KernelIdeal.Join

open Idealize.ShloMosaic Idealize.SL.Sem Idealize.ShloMosaic.ValueIdx

/-! ## The arithmetic of the join, over any two arrays -/

/-- Every position of the long axis is a position of its tile. -/
theorem pos_div_mod (n : Fin 4096) :
    Cert.Attn.pos ⟨n.val / 512, by have := n.isLt; omega⟩ ⟨n.val % 512, Nat.mod_lt _ (by decide)⟩ = n :=
  Fin.ext (by show 512 * (n.val / 512) + n.val % 512 = n.val; omega)

/-- Over a real image f: if an array N holds the finished numerators and an array P holds, at lane 0 of each tile, the
    finished totals, then N at (b, ch, n) over the sum of the 8 totals of batch b is the reference's form of the result
    at (b, ch, n). -/
theorem quotient_eq_out (f : Cert.Attn.SF.Idx → EReal) (hf : ∀ i, ∃ r : ℝ, f i = (r : EReal))
    (N : (⟨3, ![4, 64, 4096]⟩ : Shape).Idx → EReal) (P : (⟨3, ![4, 1, 1024]⟩ : Shape).Idx → EReal)
    (hN : ∀ (b : Fin 4) (mi : Fin 8) (ch : Fin 64) (p : Fin 512),
      N (ix3 b ch (Cert.Attn.pos mi p)) = Cert.Attn.runNumer f b ch mi p 8)
    (hP : ∀ (b : Fin 4) (mj : Fin 8),
      P (ix3 b (0 : Fin 1) (⟨128 * mj.val, by have := mj.isLt; omega⟩ : Fin 1024)) = Cert.Attn.runTotal f b mj 8)
    (b : Fin 4) (ch : Fin 64) (n : Fin 4096) :
    Ideal.div (N (ix3 b ch n))
        (∑ mj : Fin 8, P (ix3 b (0 : Fin 1) (⟨128 * mj.val, by have := mj.isLt; omega⟩ : Fin 1024)))
      = Cert.Attn.out f b ch n := by
  have hn := pos_div_mod n
  rw [← hn, hN, ← Cert.Attn.outK_eq_out f hf]
  unfold Cert.Attn.outK
  refine congrArg (Ideal.div _) (Finset.sum_congr rfl fun mj _ => ?_)
  exact hP b mj

/-! ## The join -/

section Join

open Cert.KernelIdeal Cert.KernelIdeal.Gen Cert.KernelIdeal.Hand Cert.KernelIdeal.Arrays
open Idealize.ShloMosaic.TcCoe
open Idealize.ShloMosaic.Pipeline (Dat)

variable (m : (ℓ : Loc nD τ sig) → Buf (Elt Ideal) ℓ) (c : Dev nD)

/-- The total array after the region at lane 0 of tile mj of batch b: what the body left at point (b, mj) in lane 0
    of its block. -/
theorem arr3_lane0 (b : Fin 4) (mj : Fin 8) :
    (dats m 0 c).arrAt 3 cfg0.N (ix3 b (0 : Fin 1) (⟨128 * mj.val, by have := mj.isLt; omega⟩ : Fin 1024))
      = (dats m 0 c).after 3 (pt b mj) (ix3 (0 : Fin 1) (0 : Fin 1) (0 : Fin 128)) := by
  refine Eq.trans (congrArg ((dats m 0 c).arrAt 3 cfg0.N) ?_) (arr3_apply m c b mj (0 : Fin 128))
  refine funext fun a => Fin.ext ?_
  match a with
  | ⟨0, _⟩ => rfl
  | ⟨1, _⟩ => rfl
  | ⟨2, _⟩ => show 128 * mj.val = 128 * mj.val + 0; omega

/-- The flattened image as the region finds it is the reference's flattened image of the launch's argument. -/
theorem V_main_v0_eq_ref :
    V m c main_v0 = Cert.ReferenceIdeal.Read.val_main_v0 (F := Ideal) (m ((c : Thread nD τ).loc main_arg0)) := by
  rw [V_main_v0]
  rfl

/-- Under the precondition, and with the body's finished numerators and totals as the specification's, the host
    tail of the two arrays the region leaves is the reference's result before its last reshape. -/
theorem kernel_eq_ref
    (hpre : Cert.Pre_finite_inputs.fn (F := Ideal) (m ((c : Thread nD τ).loc main_arg0)) = fun _ => 1#1)
    (hnum : ∀ (b : Fin 4) (mi : Fin 8) (ch : Fin 64) (p : Fin 512),
      (dats m 0 c).after 2 (pt b mi) (ix3 (0 : Fin 1) ch p) = Cert.Attn.runNumer (V m c main_v0) b ch mi p 8)
    (htot : ∀ (b : Fin 4) (mi : Fin 8),
      (dats m 0 c).after 3 (pt b mi) (ix3 (0 : Fin 1) (0 : Fin 1) (0 : Fin 128)) = Cert.Attn.runTotal (V m c main_v0) b mi 8) :
    Cert.KernelIdeal.TailAt.tail (F := Ideal) ((dats m 0 c).arrAt 2 cfg0.N) ((dats m 0 c).arrAt 3 cfg0.N)
      = Cert.ReferenceIdeal.Read.val_main_v7 (F := Ideal) (m ((c : Thread nD τ).loc main_arg0)) := by
  have hf : ∀ i, ∃ r : ℝ, V m c main_v0 i = (r : EReal) := by
    rw [V_main_v0_eq_ref]
    exact Cert.AttnRef.finite_flat_of_pre _ hpre
  funext j
  obtain ⟨b, ch, n, rfl⟩ : ∃ b ch n, j = ix3 b ch n := ⟨j 0, j 1, j 2, eq_ix3 j⟩
  rw [Cert.KernelIdeal.TailAt.tail_apply, Cert.AttnRef.ref_v7_apply, ← V_main_v0_eq_ref]
  exact quotient_eq_out (V m c main_v0) hf _ _
    (fun b mi ch p => (arr2_apply m c b mi ch p).trans (hnum b mi ch p))
    (fun b mj => (arr3_lane0 m c b mj).trans (htot b mj)) b ch n

/-- One reshape further: the kernel's result array is the reference's. -/
theorem kernel_result_eq_ref
    (hpre : Cert.Pre_finite_inputs.fn (F := Ideal) (m ((c : Thread nD τ).loc main_arg0)) = fun _ => 1#1)
    (hnum : ∀ (b : Fin 4) (mi : Fin 8) (ch : Fin 64) (p : Fin 512),
      (dats m 0 c).after 2 (pt b mi) (ix3 (0 : Fin 1) ch p) = Cert.Attn.runNumer (V m c main_v0) b ch mi p 8)
    (htot : ∀ (b : Fin 4) (mi : Fin 8),
      (dats m 0 c).after 3 (pt b mi) (ix3 (0 : Fin 1) (0 : Fin 1) (0 : Fin 128)) = Cert.Attn.runTotal (V m c main_v0) b mi 8) :
    shapeCast _ (Cert.KernelIdeal.TailAt.tail (F := Ideal) ((dats m 0 c).arrAt 2 cfg0.N) ((dats m 0 c).arrAt 3 cfg0.N))
        Cert.KernelIdeal.Gen.shapeCasts_S4x64x4096_S4x64x64x64
      = Cert.ReferenceIdeal.Read.val_main_v8 (F := Ideal) (m ((c : Thread nD τ).loc main_arg0)) := by
  rw [kernel_eq_ref m c hpre hnum htot]
  rfl

end Join

end Cert.KernelIdeal.Join

end
-- ==== Proof.KIResult.lean ====
/-
  The last link: at every grid point the body leaves the specification's finished running numerator and total in its
  two result blocks, and so, under the precondition, the kernel's result array is the reference's.

  At the point of batch b and column tile mi the body's two input blocks are tile mi of batch b of the flattened image
  and the batch's whole slice of it; what the body leaves is the running numerator and total after all 8 row tiles of
  those two blocks, and these are the specification's of the image. The host operations after the region turn the two
  arrays into the quotient, which under the precondition (every entry a real number) is the reference's result.
-/
import proofs.«171277_j13898514170484_2_alg».proof.Proof.KIValue
import proofs.«171277_j13898514170484_2_alg».proof.Proof.KIArrays
import proofs.«171277_j13898514170484_2_alg».proof.Proof.KIJoin
import proofs.«171277_j13898514170484_2_alg».proof.Proof.TailAt
import proofs.«171277_j13898514170484_2_alg».proof.Proof.KIRun

set_option maxRecDepth 16384

noncomputable section

namespace Cert.KernelIdeal.Result

open Cert.KernelIdeal Cert.KernelIdeal.Gen Cert.KernelIdeal.Hand Cert.KernelIdeal.Arrays Cert.KernelIdeal.Value2
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (c : Dev nD)

/-- At the point of batch b and column tile mi, entry (0, ch, p) of the numerator block is left at the specification's
    finished running numerator of the flattened image. -/
theorem hnum : ∀ (b : Fin 4) (mi : Fin 8) (ch : Fin 64) (p : Fin 512),
    (dats m 0 c).after 2 (pt b mi) (ix3 (0 : Fin 1) ch p) = Cert.Attn.runNumer (V m c main_v0) b ch mi p 8 := by
  intro b mi ch p
  rw [after0_2]
  exact (out2_apply c (grid0.coords (pt b mi)) (ms0_0 (pt b mi)) (hs0_0 (pt b mi)) (ms0_1 (pt b mi)) (hs0_1 (pt b mi)) (ms0_2 (pt b mi)) (hs0_2 (pt b mi)) (ms0_3 (pt b mi)) (hs0_3 (pt b mi)) scM0_0 (Memref.isWhole_whole _) scM0_1 (Memref.isWhole_whole _) (iblk m c 0 (pt b mi)) (iblk m c 1 (pt b mi)) ch p).trans
    (bodyNumer_eq_runNumer (V m c main_v0) b mi (iblk m c 0 (pt b mi)) (iblk m c 1 (pt b mi))
      (iblk0_apply m c b mi) (iblk1_apply m c b mi) ch p 8)

/-- … and lane 0 of the total block at the specification's finished running total. -/
theorem htot : ∀ (b : Fin 4) (mi : Fin 8),
    (dats m 0 c).after 3 (pt b mi) (ix3 (0 : Fin 1) (0 : Fin 1) (0 : Fin 128)) = Cert.Attn.runTotal (V m c main_v0) b mi 8 := by
  intro b mi
  rw [after0_3]
  exact (out3_apply c (grid0.coords (pt b mi)) (ms0_0 (pt b mi)) (hs0_0 (pt b mi)) (ms0_1 (pt b mi)) (hs0_1 (pt b mi)) (ms0_2 (pt b mi)) (hs0_2 (pt b mi)) (ms0_3 (pt b mi)) (hs0_3 (pt b mi)) scM0_0 (Memref.isWhole_whole _) scM0_1 (Memref.isWhole_whole _) (iblk m c 0 (pt b mi)) (iblk m c 1 (pt b mi)) (ix3 (0 : Fin 1) (0 : Fin 1) (0 : Fin 128))).trans
    (bodyTotal_eq_runTotal (V m c main_v0) b mi (iblk m c 0 (pt b mi)) (iblk m c 1 (pt b mi))
      (iblk0_apply m c b mi) (iblk1_apply m c b mi) 8)

/-- Under the precondition the result buffer when the program returns holds the reference's result of the launch's
    argument. -/
theorem result_eq
    (hpre : Cert.Pre_finite_inputs.fn (F := Ideal) (m ((c : Thread nD τ).loc main_arg0)) = fun _ => 1#1) :
    Wf m c (Proc.devRef .tc main_v9)
      = Cert.ReferenceIdeal.Read.val_main_v8 (F := Ideal) (m ((c : Thread nD τ).loc main_arg0)) := by
  show StableHlo.after hostOps1 (W1 m c) (Proc.devRef .tc main_v9) = _
  rw [Cert.KernelIdeal.TailAt.tail_after_result, W1_v1_0, W1_v1_1]
  exact Cert.KernelIdeal.Join.kernel_result_eq_ref m c hpre (hnum m c) (htot m c)

end Cert.KernelIdeal.Result

end
-- ==== Proof.lean ====
/-
  Unnormalised attention over the flattened spatial axis of an image, tiled, against the plain form.

  The image [4, 64, 64, 64] is flattened to f : [4, 64, 4096]. For a batch b the weight of a pair of positions (n, m) is
  E(n, m) = exp (∑ c, f(b,c,n) · f(b,c,m)), the batch's total is S = ∑ n, ∑ m, E(n, m), and the result is
  out(b, c, m) = ∑ n, f(b,c,n) · (E(n, m) / S): every weight is divided by the total BEFORE the sum over n.

  The tiled program computes, for a column tile of 512 positions m, the numerator ∑ n, f(b,c,n) · E(n, m) by walking the
  eight row tiles of n, adding each tile's contribution to a running numerator, and beside it the tile pairs' weights to
  a running total; the eight column tiles' totals are then added up on the host to S, and the numerator is divided by S
  AFTER the sum over n. On the extended reals the two agree because every entry of the image is a real number (the
  precondition): then each inner product is real, its exponential is a POSITIVE real, S is a positive real and so not
  zero, and dividing by it is multiplying by the real 1/S, which moves across a finite sum of reals. At an infinite entry
  this step fails, which is why the precondition is used. Regrouping the sums over n and over (n, m) by tiles needs
  nothing: addition on the extended reals is commutative and associative.

  How the pieces are cut:
  * AttnSpec — the two forms as functions of f, index by index; AttnAlgebra — that they agree for real entries.
  * KIBody / KIFrame / KIRun (and KBBody / KBFrame / KBRun, the same text for the word-level program) — the program runs
    to the end, faults nowhere and leaves its argument alone. The flattened image is handed to the kernel through two
    windows (its column tile, and the batch's whole slice); both only read it, so the array's share is halved between
    them at the region's entry and rejoined at its exit. The counted loop over the row tiles is passed once, by its
    invariant. The run also names what the result buffer ends holding.
  * PayloadAt / PayloadSum / KIValue — what one grid point's body leaves in its two result blocks, read at an index: the
    running numerator and the running total after eight trips. KIArrays — each result array after the region, block by
    block. TailAt — the host operations after the region (the eight totals added, the quotient) read at an index.
  * RefValue / FiniteInput — the plain program read at an index; every entry real under the precondition.
  * KIJoin / KIResult — the tiled program's result buffer is the plain program's.
  The idealization rewrote no operation, so the word-level program is related to its idealization by nothing to prove.
-/
import proofs.«171277_j13898514170484_2_alg».proof.Defs
import proofs.«171277_j13898514170484_2_alg».proof.Proof.Gen.Kernel
import proofs.«171277_j13898514170484_2_alg».proof.Proof.Gen.Kernel.Skeleton
import proofs.«171277_j13898514170484_2_alg».proof.Proof.Gen.Kernel.Loops
import proofs.«171277_j13898514170484_2_alg».proof.Proof.Gen.Kernel.Launch
import proofs.«171277_j13898514170484_2_alg».proof.Proof.Gen.Kernel.Points
import proofs.«171277_j13898514170484_2_alg».proof.Proof.Gen.KernelIdeal
import proofs.«171277_j13898514170484_2_alg».proof.Proof.Gen.KernelIdeal.Skeleton
import proofs.«171277_j13898514170484_2_alg».proof.Proof.Gen.KernelIdeal.Loops
import proofs.«171277_j13898514170484_2_alg».proof.Proof.Gen.KernelIdeal.Launch
import proofs.«171277_j13898514170484_2_alg».proof.Proof.Gen.KernelIdeal.Points
import proofs.«171277_j13898514170484_2_alg».proof.Proof.Gen.ReferenceIdeal
import proofs.«171277_j13898514170484_2_alg».proof.Proof.Gen.Pre_finite_inputs
import proofs.«171277_j13898514170484_2_alg».proof.Proof.Gen.ReferenceIdeal.Run
import proofs.«171277_j13898514170484_2_alg».proof.Proof.Gen.ReferenceIdeal.Read
import proofs.«171277_j13898514170484_2_alg».proof.Proof.KBRun
import proofs.«171277_j13898514170484_2_alg».proof.Proof.KIRun
import proofs.«171277_j13898514170484_2_alg».proof.Proof.KIResult
import Idealize.ShloMosaic.Adequacy
import Idealize.ShloMosaic.Init

noncomputable section

namespace Cert.Proof

open Idealize.ShloMosaic Idealize.SL.Sem

/-- The word-level program runs to the end, faults nowhere and leaves the image as launched. -/
theorem frame_k : Cert.frame_Kernel := fun m ρ _ => Cert.Kernel.Hand.frame m ρ

/-- So does its idealization. -/
theorem frame_ki : Cert.frame_KernelIdeal := fun m ρ _ => Cert.KernelIdeal.Hand.frame m ρ

/-- And the plain program: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories that agree on the image, every entry of it real, both programs end with the result buffer at the
    plain program's function of the image: the tiled one by the join (the quotient taken after the sum over the row
    positions equals the sum of the quotients), the plain one by its own run. -/
theorem algebraic : Cert.algebraic_KernelIdeal_ReferenceIdeal := by
  intro m ρ m' ρ' hpre hagree
  refine ⟨fun c => Cert.ReferenceIdeal.Read.val_main_v8 (F := Ideal) (m ((c.tc : Thread Cert.KernelIdeal.nD Cert.KernelIdeal.τ).loc Cert.KernelIdeal.main_arg0)), ?_, ?_⟩
  · exact (θ_run Cert.KernelIdeal.defs _ _).mono
      (fun _ h c => ⟨(h c).1.trans (Cert.KernelIdeal.Result.result_eq m c (hpre c)), (h c).2⟩)
      (Cert.KernelIdeal.Hand.run_main m ρ)
  · exact (θ_run Cert.ReferenceIdeal.defs _ _).mono
      (fun _ h c => ⟨((h c).1.trans (Cert.ReferenceIdeal.Read.val_main_v8_eq _)).trans
          (congrArg (Cert.ReferenceIdeal.Read.val_main_v8 (F := Ideal)) (hagree c)), (h c).2⟩)
      (Cert.ReferenceIdeal.Value.run (F := Ideal) m' ρ')

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
